-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x14x14 : Shape := ⟨4, ![16384, 2, 14, 14]⟩
abbrev S16384x14x14x14 : Shape := ⟨4, ![16384, 14, 14, 14]⟩
abbrev S16384x14x2 : Shape := ⟨3, ![16384, 14, 2]⟩
abbrev S16384x14x1 : Shape := ⟨3, ![16384, 14, 1]⟩
abbrev S_ : Shape := ⟨0, ![]⟩

class Facts : Prop where
  bcast_S_S16384x2x14x14 : S_.BroadcastsInDim S16384x2x14x14 (![] : Fin 0 → Fin S16384x2x14x14.rank)
  reducesTo_S16384x2x14x14_S_d0_1_2_3 : S16384x2x14x14.ReducesTo [0, 1, 2, 3] S_
  h_S_ : 0 < S_.numel
  bcast_S_S16384x14x14x14 : S_.BroadcastsInDim S16384x14x14x14 (![] : Fin 0 → Fin S16384x14x14x14.rank)
  reducesTo_S16384x14x14x14_S_d0_1_2_3 : S16384x14x14x14.ReducesTo [0, 1, 2, 3] S_
  bcast_S_S16384x14x2 : S_.BroadcastsInDim S16384x14x2 (![] : Fin 0 → Fin S16384x14x2.rank)
  reducesTo_S16384x14x2_S_d0_1_2 : S16384x14x2.ReducesTo [0, 1, 2] S_

variable [Facts]

def fn {F : FTy → Type} [FloatOps F] (main_arg0 : FVec F S16384x2x14x14 .f32) (main_arg1 : FVec F S16384x14x14x14 .f32) (main_arg2 : FVec F S16384x14x2 .f32) (main_arg3 : IVec S16384x14x1 32) : IVec S_ 1 :=
  let main_v0 : FVec F S16384x2x14x14 .f32 := Host.absf main_arg0
  let main_cst : FVec F S_ .f32 := constant S_ .f32 0x7F800000#32
  let main_v1 : FVec F S16384x2x14x14 .f32 := broadcastInDim S16384x2x14x14 ![] bcast_S_S16384x2x14x14 main_cst
  let main_v2 : IVec S16384x2x14x14 1 := cmpf .olt main_v0 main_v1
  let main_c : IVec S_ 1 := constantI S_ 1 1#1
  let main_v3 : IVec S_ 1 := (fun x v => Host.reduce IntOp.andi x v reducesTo_S16384x2x14x14_S_d0_1_2_3 h_S_) main_v2 main_c
  let main_v4 : FVec F S16384x14x14x14 .f32 := Host.absf main_arg1
  let main_cst_0 : FVec F S_ .f32 := constant S_ .f32 0x7F800000#32
  let main_v5 : FVec F S16384x14x14x14 .f32 := broadcastInDim S16384x14x14x14 ![] bcast_S_S16384x14x14x14 main_cst_0
  let main_v6 : IVec S16384x14x14x14 1 := cmpf .olt main_v4 main_v5
  let main_c_1 : IVec S_ 1 := constantI S_ 1 1#1
  let main_v7 : IVec S_ 1 := (fun x v => Host.reduce IntOp.andi x v reducesTo_S16384x14x14x14_S_d0_1_2_3 h_S_) main_v6 main_c_1
  let main_v8 : IVec S_ 1 := andi main_v3 main_v7
  let main_v9 : FVec F S16384x14x2 .f32 := Host.absf main_arg2
  let main_cst_2 : FVec F S_ .f32 := constant S_ .f32 0x7F800000#32
  let main_v10 : FVec F S16384x14x2 .f32 := broadcastInDim S16384x14x2 ![] bcast_S_S16384x14x2 main_cst_2
  let main_v11 : IVec S16384x14x2 1 := cmpf .olt main_v9 main_v10
  let main_c_3 : IVec S_ 1 := constantI S_ 1 1#1
  let main_v12 : IVec S_ 1 := (fun x v => Host.reduce IntOp.andi x v reducesTo_S16384x14x2_S_d0_1_2 h_S_) main_v11 main_c_3
  let main_v13 : IVec S_ 1 := andi main_v8 main_v12
  main_v13
-- ==== Kernel.lean ====
abbrev S16384x2x14x14 : Shape := ⟨4, ![16384, 2, 14, 14]⟩
abbrev S16384x14x14x14 : Shape := ⟨4, ![16384, 14, 14, 14]⟩
abbrev S16384x14x2 : Shape := ⟨3, ![16384, 14, 2]⟩
abbrev S16384x14x1 : Shape := ⟨3, ![16384, 14, 1]⟩
abbrev S351232x128 : Shape := ⟨2, ![351232, 128]⟩
abbrev S2x8x128 : Shape := ⟨3, ![2, 8, 128]⟩
abbrev S12544x128 : Shape := ⟨2, ![12544, 128]⟩
abbrev S1x8x128 : Shape := ⟨3, ![1, 8, 128]⟩
abbrev S8x128 : Shape := ⟨2, ![8, 128]⟩
abbrev S1x12544x128 : Shape := ⟨3, ![1, 12544, 128]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩
abbrev S16384x14 : Shape := ⟨2, ![16384, 14]⟩
abbrev S16384 : Shape := ⟨1, ![16384]⟩
abbrev S16384x1 : Shape := ⟨2, ![16384, 1]⟩
abbrev S14 : Shape := ⟨1, ![14]⟩
abbrev S1x14 : Shape := ⟨2, ![1, 14]⟩
abbrev S16384x14x4 : Shape := ⟨3, ![16384, 14, 4]⟩

abbrev nBuf : Space → Nat
  | .hbm => 90
  | .vmem => 5
  | .smem => 0
  | _ => 0

abbrev bufTy : (tb : Table) → Fin (tcTables nBuf tb) → BufTy
  | .hbm, ⟨0, _⟩ => ⟨S16384x2x14x14, .f32⟩
  | .hbm, ⟨1, _⟩ => ⟨S16384x14x14x14, .f32⟩
  | .hbm, ⟨2, _⟩ => ⟨S16384x14x2, .f32⟩
  | .hbm, ⟨3, _⟩ => ⟨S16384x14x1, .i32⟩
  | .hbm, ⟨4, _⟩ => ⟨S351232x128, .f32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x14x2, .f32⟩
  | .hbm, ⟨12, _⟩ => ⟨S16384x14x2, .f32⟩
  | .hbm, ⟨13, _⟩ => ⟨S16384x14x2, .i32⟩
  | .hbm, ⟨14, _⟩ => ⟨S16384x14x1, .i32⟩
  | .hbm, ⟨15, _⟩ => ⟨S16384x14, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S16384x14, .i32⟩
  | .hbm, ⟨20, _⟩ => ⟨S16384x14, .i32⟩
  | .hbm, ⟨21, _⟩ => ⟨S_, .i32⟩
  | .hbm, ⟨22, _⟩ => ⟨S16384x14, .i32⟩
  | .hbm, ⟨23, _⟩ => ⟨S16384x14, .i32⟩
  | .hbm, ⟨24, _⟩ => ⟨S16384x14x1, .i32⟩
  | .hbm, ⟨25, _⟩ => ⟨S16384x14, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16384x14, .i32⟩
  | .hbm, ⟨30, _⟩ => ⟨S16384x14, .i32⟩
  | .hbm, ⟨31, _⟩ => ⟨S_, .i32⟩
  | .hbm, ⟨32, _⟩ => ⟨S16384x14, .i32⟩
  | .hbm, ⟨33, _⟩ => ⟨S16384x14, .i32⟩
  | .hbm, ⟨34, _⟩ => ⟨S16384x14, .i32⟩
  | .hbm, ⟨35, _⟩ => ⟨S_, .i32⟩
  | .hbm, ⟨36, _⟩ => ⟨S16384x14, .i32⟩
  | .hbm, ⟨37, _⟩ => ⟨S16384x14, .i1⟩
  | .hbm, ⟨38, _⟩ => ⟨S16384x14, .f32⟩
  | .hbm, ⟨39, _⟩ => ⟨S16384, .i32⟩
  | .hbm, ⟨40, _⟩ => ⟨S16384x1, .i32⟩
  | .hbm, ⟨41, _⟩ => ⟨S14, .i32⟩
  | .hbm, ⟨42, _⟩ => ⟨S1x14, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S_, .i32⟩
  | .hbm, ⟨47, _⟩ => ⟨S16384x1, .i32⟩
  | .hbm, ⟨48, _⟩ => ⟨S16384x1, .i32⟩
  | .hbm, ⟨49, _⟩ => ⟨S16384x1, .i32⟩
  | .hbm, ⟨50, _⟩ => ⟨S_, .i32⟩
  | .hbm, ⟨51, _⟩ => ⟨S1x14, .i32⟩
  | .hbm, ⟨52, _⟩ => ⟨S1x14, .i1⟩
  | .hbm, ⟨53, _⟩ => ⟨S_, .i32⟩
  | .hbm, ⟨54, _⟩ => ⟨S1x14, .i32⟩
  | .hbm, ⟨55, _⟩ => ⟨S1x14, .i32⟩
  | .hbm, ⟨56, _⟩ => ⟨S1x14, .i32⟩
  | .hbm, ⟨57, _⟩ => ⟨S_, .i32⟩
  | .hbm, ⟨58, _⟩ => ⟨S16384x14, .i32⟩
  | .hbm, ⟨59, _⟩ => ⟨S16384x14, .i1⟩
  | .hbm, ⟨60, _⟩ => ⟨S_, .i32⟩
  | .hbm, ⟨61, _⟩ => ⟨S16384x14, .i32⟩
  | .hbm, ⟨62, _⟩ => ⟨S16384x14, .i32⟩
  | .hbm, ⟨63, _⟩ => ⟨S16384x14, .i32⟩
  | .hbm, ⟨64, _⟩ => ⟨S_, .i32⟩
  | .hbm, ⟨65, _⟩ => ⟨S16384x14, .i32⟩
  | .hbm, ⟨66, _⟩ => ⟨S16384x14, .i1⟩
  | .hbm, ⟨67, _⟩ => ⟨S_, .i32⟩
  | .hbm, ⟨68, _⟩ => ⟨S16384x14, .i32⟩
  | .hbm, ⟨69, _⟩ => ⟨S16384x14, .i32⟩
  | .hbm, ⟨70, _⟩ => ⟨S16384x14, .i32⟩
  | .hbm, ⟨71, _⟩ => ⟨S16384x14, .i32⟩
  | .hbm, ⟨72, _⟩ => ⟨S16384x14, .i32⟩
  | .hbm, ⟨73, _⟩ => ⟨S16384x14x1, .i32⟩
  | .hbm, ⟨74, _⟩ => ⟨S16384x14x1, .i32⟩
  | .hbm, ⟨75, _⟩ => ⟨S16384x14x1, .i32⟩
  | .hbm, ⟨76, _⟩ => ⟨S16384x14x1, .i32⟩
  | .hbm, ⟨77, _⟩ => ⟨S16384x14x4, .i32⟩
  | .hbm, ⟨78, _⟩ => ⟨S16384x14, .f32⟩
  | .hbm, ⟨79, _⟩ => ⟨S16384x14, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S12544x128, .f32⟩
  | .local _ .vmem, ⟨1, _⟩ => ⟨S12544x128, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | _, _ => ⟨S16384x2x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_c_10 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_11 : Ref sig .tc := ⟨.hbm, 64, rfl⟩
abbrev main_v37 : Ref sig .tc := ⟨.hbm, 65, rfl⟩
abbrev main_v38 : Ref sig .tc := ⟨.hbm, 66, rfl⟩
abbrev main_c_12 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg1 : BitVec 32 := BitVec.ofNat 32 (i 1).val
  let c13_i32 : BitVec 32 := 13#32
  let v16 : BitVec 1 := Scalar.cmpi .eq arg1 c13_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S16384x14x14x14_S351232x128 : S16384x14x14x14.ShapeCasts S351232x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S12544x128_S12544x128_0_0 : ∀ a, (![0, 0] : Fin 2 → Nat) a + S12544x128.size a ≤ S12544x128.size a
  h_S12544x128 : 0 < S12544x128.numel
  shapeCasts_S12544x128_S12544x128 : S12544x128.ShapeCasts S12544x128
  shapeCasts_S12544x128_S1x12544x128 : S12544x128.ShapeCasts S1x12544x128
  reduces_S1x12544x128_S1 : S1x12544x128.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  bcast_S_S16384x14x2 : S_.BroadcastsInDim S16384x14x2 (![] : Fin 0 → Fin S16384x14x2.rank)
  slices_S16384x14x2_S16384x14x1_0_0_0 : S16384x14x2.Slices ![0, 0, 0] S16384x14x1
  shapeCasts_S16384x14x1_S16384x14 : S16384x14x1.ShapeCasts S16384x14
  bcast_S_S16384x14 : S_.BroadcastsInDim S16384x14 (![] : Fin 0 → Fin S16384x14.rank)
  slices_S16384x14x2_S16384x14x1_0_0_1 : S16384x14x2.Slices ![0, 0, 1] S16384x14x1
  bcast_S16384_S16384x1_0 : S16384.BroadcastsInDim S16384x1 (![0] : Fin 1 → Fin S16384x1.rank)
  bcast_S14_S1x14_1 : S14.BroadcastsInDim S1x14 (![1] : Fin 1 → Fin S1x14.rank)
  bcast_S_S16384x1 : S_.BroadcastsInDim S16384x1 (![] : Fin 0 → Fin S16384x1.rank)
  bcast_S_S1x14 : S_.BroadcastsInDim S1x14 (![] : Fin 0 → Fin S1x14.rank)
  bcast_S16384x1_S16384x14_0_1 : S16384x1.BroadcastsInDim S16384x14 (![0, 1] : Fin 2 → Fin S16384x14.rank)
  bcast_S1x14_S16384x14_0_1 : S1x14.BroadcastsInDim S16384x14 (![0, 1] : Fin 2 → Fin S16384x14.rank)
  bcast_S16384x14_S16384x14x1_0_1 : S16384x14.BroadcastsInDim S16384x14x1 (![0, 1] : Fin 2 → Fin S16384x14x1.rank)
  concatenates_S16384x14x1_S16384x14x1_S16384x14x1_S16384x14x1_S16384x14x4_d2 : Shape.Concatenates [S16384x14x1, S16384x14x1, S16384x14x1, S16384x14x1] S16384x14x4 2
  reducesTo_S16384x14_S_d0_1 : S16384x14.ReducesTo [0, 1] S_
  gather_S16384x14x14x14_S16384x14x4_S16384x14_n_0123_n_n_0123_2_1111_wf : GatherDims.WF S16384x14x14x14 S16384x14x4 S16384x14 [] [0, 1, 2, 3] [] [0, 1, 2, 3] [] 2 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12544x128.size a ≤ S351232x128.size a
  hwx0_0 : ∀ i : grid0.Coords, EltTy.bits .f32 = 32 ∨ (Rect.block (s := S351232x128) S12544x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

def gather_S16384x14x14x14_S16384x14x4_S16384x14_n_0123_n_n_0123_2_1111 : GatherDims S16384x14x14x14 S16384x14x4 S16384x14 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S16384x14x14x14_S16384x14x4_S16384x14_n_0123_n_n_0123_2_1111_wf

abbrev win0_0 : Pipeline.Window sig grid0 :=
  Pipeline.Window.ofSpec (Memref.whole main_v0) S12544x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16384x2x14x14 : Shape := ⟨4, ![16384, 2, 14, 14]⟩
abbrev S16384x14x14x14 : Shape := ⟨4, ![16384, 14, 14, 14]⟩
abbrev S16384x14x2 : Shape := ⟨3, ![16384, 14, 2]⟩
abbrev S16384x14x1 : Shape := ⟨3, ![16384, 14, 1]⟩
abbrev S_ : Shape := ⟨0, ![]⟩
abbrev S16384x14 : Shape := ⟨2, ![16384, 14]⟩
abbrev S16384 : Shape := ⟨1, ![16384]⟩
abbrev S16384x1 : Shape := ⟨2, ![16384, 1]⟩
abbrev S14 : Shape := ⟨1, ![14]⟩
abbrev S1x14 : Shape := ⟨2, ![1, 14]⟩
abbrev S16384x14x4 : Shape := ⟨3, ![16384, 14, 4]⟩

abbrev nBuf : Space → Nat
  | .hbm => 81
  | .vmem => 0
  | .smem => 0
  | _ => 0

abbrev bufTy : (tb : Table) → Fin (tcTables nBuf tb) → BufTy
  | .hbm, ⟨0, _⟩ => ⟨S16384x2x14x14, .f32⟩
  | .hbm, ⟨1, _⟩ => ⟨S16384x14x14x14, .f32⟩
  | .hbm, ⟨2, _⟩ => ⟨S16384x14x2, .f32⟩
  | .hbm, ⟨3, _⟩ => ⟨S16384x14x1, .i32⟩
  | .hbm, ⟨4, _⟩ => ⟨S_, .f32⟩
  | .hbm, ⟨5, _⟩ => ⟨S16384x14x2, .f32⟩
  | .hbm, ⟨6, _⟩ => ⟨S16384x14x2, .f32⟩
  | .hbm, ⟨7, _⟩ => ⟨S16384x14x2, .i32⟩
  | .hbm, ⟨8, _⟩ => ⟨S16384x14x1, .i32⟩
  | .hbm, ⟨9, _⟩ => ⟨S16384x14, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384x14, .i32⟩
  | .hbm, ⟨14, _⟩ => ⟨S16384x14, .i32⟩
  | .hbm, ⟨15, _⟩ => ⟨S_, .i32⟩
  | .hbm, ⟨16, _⟩ => ⟨S16384x14, .i32⟩
  | .hbm, ⟨17, _⟩ => ⟨S16384x14, .i32⟩
  | .hbm, ⟨18, _⟩ => ⟨S16384x14x1, .i32⟩
  | .hbm, ⟨19, _⟩ => ⟨S16384x14, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S16384x14, .i32⟩
  | .hbm, ⟨24, _⟩ => ⟨S16384x14, .i32⟩
  | .hbm, ⟨25, _⟩ => ⟨S_, .i32⟩
  | .hbm, ⟨26, _⟩ => ⟨S16384x14, .i32⟩
  | .hbm, ⟨27, _⟩ => ⟨S16384x14, .i32⟩
  | .hbm, ⟨28, _⟩ => ⟨S16384x14, .i32⟩
  | .hbm, ⟨29, _⟩ => ⟨S_, .i32⟩
  | .hbm, ⟨30, _⟩ => ⟨S16384x14, .i32⟩
  | .hbm, ⟨31, _⟩ => ⟨S16384x14, .i1⟩
  | .hbm, ⟨32, _⟩ => ⟨S16384x14, .f32⟩
  | .hbm, ⟨33, _⟩ => ⟨S16384, .i32⟩
  | .hbm, ⟨34, _⟩ => ⟨S16384x1, .i32⟩
  | .hbm, ⟨35, _⟩ => ⟨S14, .i32⟩
  | .hbm, ⟨36, _⟩ => ⟨S1x14, .i32⟩
  | .hbm, ⟨37, _⟩ => ⟨S_, .f32⟩
  | .hbm, ⟨38, _⟩ => ⟨S16384x14x14x14, .f32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S_, .i32⟩
  | .hbm, ⟨43, _⟩ => ⟨S16384x1, .i32⟩
  | .hbm, ⟨44, _⟩ => ⟨S16384x1, .i32⟩
  | .hbm, ⟨45, _⟩ => ⟨S16384x1, .i32⟩
  | .hbm, ⟨46, _⟩ => ⟨S_, .i32⟩
  | .hbm, ⟨47, _⟩ => ⟨S1x14, .i32⟩
  | .hbm, ⟨48, _⟩ => ⟨S1x14, .i1⟩
  | .hbm, ⟨49, _⟩ => ⟨S_, .i32⟩
  | .hbm, ⟨50, _⟩ => ⟨S1x14, .i32⟩
  | .hbm, ⟨51, _⟩ => ⟨S1x14, .i32⟩
  | .hbm, ⟨52, _⟩ => ⟨S1x14, .i32⟩
  | .hbm, ⟨53, _⟩ => ⟨S_, .i32⟩
  | .hbm, ⟨54, _⟩ => ⟨S16384x14, .i32⟩
  | .hbm, ⟨55, _⟩ => ⟨S16384x14, .i1⟩
  | .hbm, ⟨56, _⟩ => ⟨S_, .i32⟩
  | .hbm, ⟨57, _⟩ => ⟨S16384x14, .i32⟩
  | .hbm, ⟨58, _⟩ => ⟨S16384x14, .i32⟩
  | .hbm, ⟨59, _⟩ => ⟨S16384x14, .i32⟩
  | .hbm, ⟨60, _⟩ => ⟨S_, .i32⟩
  | .hbm, ⟨61, _⟩ => ⟨S16384x14, .i32⟩
  | .hbm, ⟨62, _⟩ => ⟨S16384x14, .i1⟩
  | .hbm, ⟨63, _⟩ => ⟨S_, .i32⟩
  | .hbm, ⟨64, _⟩ => ⟨S16384x14, .i32⟩
  | .hbm, ⟨65, _⟩ => ⟨S16384x14, .i32⟩
  | .hbm, ⟨66, _⟩ => ⟨S16384x14, .i32⟩
  | .hbm, ⟨67, _⟩ => ⟨S16384x14, .i32⟩
  | .hbm, ⟨68, _⟩ => ⟨S16384x14, .i32⟩
  | .hbm, ⟨69, _⟩ => ⟨S16384x14x1, .i32⟩
  | .hbm, ⟨70, _⟩ => ⟨S16384x14x1, .i32⟩
  | .hbm, ⟨71, _⟩ => ⟨S16384x14x1, .i32⟩
  | .hbm, ⟨72, _⟩ => ⟨S16384x14x1, .i32⟩
  | .hbm, ⟨73, _⟩ => ⟨S16384x14x4, .i32⟩
  | .hbm, ⟨74, _⟩ => ⟨S16384x14x14x14, .f32⟩
  | .hbm, ⟨75, _⟩ => ⟨S16384x14x14x14, .f32⟩
  | .hbm, ⟨76, _⟩ => ⟨S16384x14x14x14, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16384x2x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_c_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_9 : Ref sig .tc := ⟨.hbm, 53, rfl⟩
abbrev main_v28 : Ref sig .tc := ⟨.hbm, 54, rfl⟩
abbrev main_v29 : Ref sig .tc := ⟨.hbm, 55, rfl⟩
abbrev main_c_10 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_11 : Ref sig .tc := ⟨.hbm, 60, rfl⟩
abbrev main_v33 : Ref sig .tc := ⟨.hbm, 61, rfl⟩
abbrev main_v34 : Ref sig .tc := ⟨.hbm, 62, rfl⟩
abbrev main_c_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩

abbrev nD : Nat := 1
abbrev τ : Topo := Topo.v7x

variable {F : FTy → Type} [FloatOps F]

class Facts₀ : Prop where
  bcast_S_S16384x14x2 : S_.BroadcastsInDim S16384x14x2 (![] : Fin 0 → Fin S16384x14x2.rank)
  slices_S16384x14x2_S16384x14x1_0_0_0 : S16384x14x2.Slices ![0, 0, 0] S16384x14x1
  shapeCasts_S16384x14x1_S16384x14 : S16384x14x1.ShapeCasts S16384x14
  bcast_S_S16384x14 : S_.BroadcastsInDim S16384x14 (![] : Fin 0 → Fin S16384x14.rank)
  slices_S16384x14x2_S16384x14x1_0_0_1 : S16384x14x2.Slices ![0, 0, 1] S16384x14x1
  bcast_S16384_S16384x1_0 : S16384.BroadcastsInDim S16384x1 (![0] : Fin 1 → Fin S16384x1.rank)
  bcast_S14_S1x14_1 : S14.BroadcastsInDim S1x14 (![1] : Fin 1 → Fin S1x14.rank)
  bcast_S_S16384x14x14x14 : S_.BroadcastsInDim S16384x14x14x14 (![] : Fin 0 → Fin S16384x14x14x14.rank)
  bcast_S_S16384x1 : S_.BroadcastsInDim S16384x1 (![] : Fin 0 → Fin S16384x1.rank)
  bcast_S_S1x14 : S_.BroadcastsInDim S1x14 (![] : Fin 0 → Fin S1x14.rank)
  bcast_S16384x1_S16384x14_0_1 : S16384x1.BroadcastsInDim S16384x14 (![0, 1] : Fin 2 → Fin S16384x14.rank)
  bcast_S1x14_S16384x14_0_1 : S1x14.BroadcastsInDim S16384x14 (![0, 1] : Fin 2 → Fin S16384x14.rank)
  bcast_S16384x14_S16384x14x1_0_1 : S16384x14.BroadcastsInDim S16384x14x1 (![0, 1] : Fin 2 → Fin S16384x14x1.rank)
  concatenates_S16384x14x1_S16384x14x1_S16384x14x1_S16384x14x1_S16384x14x4_d2 : Shape.Concatenates [S16384x14x1, S16384x14x1, S16384x14x1, S16384x14x1] S16384x14x4 2
  reducesTo_S16384x14x14x14_S_d0_1_2_3 : S16384x14x14x14.ReducesTo [0, 1, 2, 3] S_
  h_S_ : 0 < S_.numel
  scatter_S16384x14x14x14_S16384x14x4_S16384x14_n_0123_0123_2_wf : ScatterDims.WF S16384x14x14x14 S16384x14x4 S16384x14 [] [0, 1, 2, 3] [0, 1, 2, 3] 2

variable [Facts₀]

def scatter_S16384x14x14x14_S16384x14x4_S16384x14_n_0123_0123_2 : ScatterDims S16384x14x14x14 S16384x14x4 S16384x14 where
  updateWindowDims := []
  insertedWindowDims := [0, 1, 2, 3]
  scatterDimsToOperandDims := [0, 1, 2, 3]
  indexVectorDim := 2
  wf := scatter_S16384x14x14x14_S16384x14x4_S16384x14_n_0123_0123_2_wf

class Facts : Prop extends Facts₀ where

variable [Facts]
-- ==== Proof.FrameKernel.Around.lean ====
/-
  The program around its one region. @main is: one reshape of h into the lane-dense (351232, 128) array, the
  region (a grid of 2 × 14 points, each reading one block of 12544 rows and adding its sum of squares into an
  (8, 128) accumulator that lives in scratch memory), then eighty-four host operations that read the region's
  (2, 8, 128) result and the argument arrays and write fresh buffers only.
  Here: the contents of every buffer when the region is entered (`V0`, `V`), @main as "prefix, region, suffix",
  the facts that the suffix writes neither an argument nor an array the region stages, the block of h a grid point
  reads (`iblk`), the two branch conditions of the body decided over the grid (step 0 of a core: reset the accumulator;
  step 13: copy it to the output block), and where the output window is idle.
-/
import proofs.«158940_j57629871178021_2_alg».proof.Proof.Gen.Kernel.Launch
import proofs.«158940_j57629871178021_2_alg».proof.Proof.Gen.Kernel.Skeleton
import proofs.«158940_j57629871178021_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2, hostOps1_3, hostOps1_4]

/-- Core `c`'s buffer contents when the region is entered: after the reshape of h. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshape, the region, and the later host operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer a host operation after the region writes, in program order. -/
abbrev tailWrites : List (Ref sig .tc) :=
  [main_v2, main_v3, main_cst, main_v4, main_cst_0, main_v5, main_v6, main_v7, main_v8, main_v9, main_c, main_c_1,
   main_call0_v0, main_call0_v1, main_call0_v2, main_call0_v3, main_call0_v4, main_v10,
   main_v11, main_v12, main_c_2, main_c_3,
   main_call1_v0, main_call1_v1, main_call1_v2, main_call1_v3, main_call1_v4, main_v13,
   main_v14, main_c_4, main_v15, main_v16, main_v17, main_v18, main_v19, main_v20, main_v21, main_c_5, main_v22, main_v23,
   main_c_6, main_v24, main_v25, main_v26, main_c_7, main_v27, main_v28, main_c_8, main_v29, main_v30, main_v31,
   main_c_9, main_v32, main_v33, main_c_10, main_v34, main_v35, main_v36, main_c_11, main_v37, main_v38, main_c_12,
   main_v39, main_v40, main_v41, main_v42, main_v43, main_v44, main_v45, main_v46, main_v47, main_v48, main_v49,
   main_v50, main_cst_13, main_v51, main_cst_14, main_v52, main_cst_15, main_v53, main_v54, main_v55, main_cst_16, main_v56]

/-- An operation that writes its one result buffer, a member of the list, writes within the list. -/
theorem writes_sub_of {op : HloOp τ sig (Elt F)} {y : Ref sig .tc} (h : op.writes = {Proc.devRef .tc y}) (hy : y ∈ tailWrites) :
    op.writes ⊆ (tailWrites.map (Proc.devRef (τ := τ) .tc)).toFinset := by
  rw [h]; exact Finset.singleton_subset_iff.mpr (List.mem_toFinset.mpr (List.mem_map_of_mem hy))

theorem hostOps1_writes : (hostOps1 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_1_writes : (hostOps1_1 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_2_writes : (hostOps1_2 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_3_writes : (hostOps1_3 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_4_writes : (hostOps1_4 : List (HloOp τ sig (Elt F))).Forall fun op => op.writes ⊆ (tailWrites.map (Proc.devRef (τ := τ) .tc)).toFinset := by
  simp only [List.Forall]; repeat' apply And.intro
  all_goals exact writes_sub_of rfl (by decide)

/-- The whole suffix writes within the list. -/
theorem tail_writes : ((tailOps (F := F)).flatten).Forall fun op => op.writes ⊆ (tailWrites.map (Proc.devRef (τ := τ) .tc)).toFinset := by
  rw [List.forall_iff_forall_mem]
  intro op hop
  obtain ⟨ops, hops, hop⟩ := List.mem_flatten.mp hop
  simp only [List.mem_cons, List.mem_nil_iff, or_false] at hops
  rcases hops with rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write neither array the region stages (the reshaped h and the region's result are not in the list). -/
theorem sfx_keeps : ∀ ops ∈ (tailOps : List (List (HloOp τ sig (Elt F)))), ∀ op ∈ ops,
    ∀ w, Proc.devRef .tc (Pipeline.arrRef spec0 w) ∉ op.writes := by
  intro ops hops op hop w hw
  have h := (List.forall_iff_forall_mem.mp (tail_writes (F := F))) op (List.mem_flatten.mpr ⟨ops, hops, hop⟩) hw
  obtain ⟨y, hy, he⟩ := List.mem_map.mp (List.mem_toFinset.mp h)
  have e : y = Pipeline.arrRef spec0 w := Proc.devRef_injective _ he
  subst e
  revert hy
  fin_cases w <;> decide

/-- A buffer outside the list holds after the suffix what it held before it. -/
theorem tail_keeps (W : Valuation τ sig (Elt F)) (r : Ref sig .tc) (hr : r ∉ tailWrites) :
    StableHlo.after ((tailOps (F := F)).flatten) W (Proc.devRef .tc r) = W (Proc.devRef .tc r) :=
  StableHlo.after_of_writes_sub _ W tail_writes hr

/-- The reshape before the region writes only its own result: the region finds each argument as launched. -/
theorem V_main_arg0 (c : Dev nD) : V m c main_arg0 = m ((c : Thread nD τ).loc main_arg0) :=
  StableHlo.after_of_writes_sub (W := [main_v0]) _ _ (by simp only [List.flatten_cons, List.flatten_nil, List.append_nil, List.Forall]; exact subset_of_eq (by rfl)) (by decide)
theorem V_main_arg1 (c : Dev nD) : V m c main_arg1 = m ((c : Thread nD τ).loc main_arg1) :=
  StableHlo.after_of_writes_sub (W := [main_v0]) _ _ (by simp only [List.flatten_cons, List.flatten_nil, List.append_nil, List.Forall]; exact subset_of_eq (by rfl)) (by decide)
theorem V_main_arg2 (c : Dev nD) : V m c main_arg2 = m ((c : Thread nD τ).loc main_arg2) :=
  StableHlo.after_of_writes_sub (W := [main_v0]) _ _ (by simp only [List.flatten_cons, List.flatten_nil, List.append_nil, List.Forall]; exact subset_of_eq (by rfl)) (by decide)
theorem V_main_arg3 (c : Dev nD) : V m c main_arg3 = m ((c : Thread nD τ).loc main_arg3) :=
  StableHlo.after_of_writes_sub (W := [main_v0]) _ _ (by simp only [List.flatten_cons, List.flatten_nil, List.append_nil, List.Forall]; exact subset_of_eq (by rfl)) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block of the reshaped h at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- "This is step 0 of the core's sweep" (the accumulator is reset), as the body computes it. -/
abbrev cond0_0 (i : grid0.Coords) : Prop := (Scalar.cmpi .ne (Scalar.extui (Scalar.cmpi .eq (BitVec.ofNat 32 (i 1).val) 0#32)) 0#32) = 1#1
/-- It holds at the points 0 and 14. -/
theorem hcond0_0 : ∀ t : Fin cfg0.N, cond0_0 (grid0.coords t) ↔ t.val % 14 = 0 :=
  (by decide +kernel : ∀ t : Fin grid0.N, cond0_0 (grid0.coords t) ↔ t.val % 14 = 0)

/-- "This is step 13, the last of the core's sweep" (the accumulator is copied out). -/
abbrev cond0_1 (i : grid0.Coords) : Prop := k0_cond2 i = 1#1
/-- It holds at the points 13 and 27. -/
theorem hcond0_1 : ∀ t : Fin cfg0.N, cond0_1 (grid0.coords t) ↔ t.val % 14 = 13 :=
  (by decide +kernel : ∀ t : Fin grid0.N, cond0_1 (grid0.coords t) ↔ t.val % 14 = 13)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1x8x128 .f32 := (Memref.whole cc0_stg1_0 : Memref sig .tc .vmem S1x8x128 .f32).view
abbrev ms0_0 (t : Fin cfg0.N) : Memref sig .tc .vmem S12544x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S8x128 .f32 := Memref.whole cc0_scratch0
abbrev VS0_0 : View sig .tc .vmem S8x128 .f32 := scM0_0.view

/-- The region's standing invariant: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.FrameH

end
-- ==== Proof.FrameKernel.RunA.lean ====
/-
  The body at step 0 of a core's sweep (not the last step): the accumulator, found at anything, is overwritten with
  zeros and then with zeros plus the block's sum of squares; the output block's buffer is not touched. The run is
  found by symbolic execution of the body's skeleton; what the accumulator ends with is recorded as the list of
  pieces the stores wrote, newest first.
-/
import proofs.«158940_j57629871178021_2_alg».proof.Proof.FrameKernel.Around

set_option maxRecDepth 16384

noncomputable section

namespace Cert.Kernel.FrameH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Step 0: the pieces left in the accumulator, with the proof that the body, given the input block at `x0`, the output
    buffer at `xi1` and the accumulator at anything, runs to a state holding the first two unchanged and the
    accumulator with those pieces written. -/
noncomputable def kernelRun0_A (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) :
    Σ' (L1 : List (View.Piece (Elt F) S1x8x128 .f32)), { LS0 : List (View.Piece (Elt F) S8x128 .f32) //
      ∀ (xi1 : Vec F S1x8x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.FrameH

end
-- ==== Proof.FrameKernel.RunB.lean ====
/-
  The body at a middle step of a core's sweep (neither the first nor the last): the block's sum of squares is added
  to the accumulator, found at what the step before left; the output block's buffer is not touched.
-/
import proofs.«158940_j57629871178021_2_alg».proof.Proof.FrameKernel.RunA

set_option maxRecDepth 16384

noncomputable section

namespace Cert.Kernel.FrameH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle step: the pieces left in the accumulator, with the proof that the body, given the input block at `x0`, the
    output buffer at `xi1` and the accumulator at `xs0`, runs to a state holding the first two unchanged and the
    accumulator with those pieces written. -/
noncomputable def kernelRun0_B (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) :
    Σ' (L1 : List (View.Piece (Elt F) S1x8x128 .f32)), { LS0 : List (View.Piece (Elt F) S8x128 .f32) //
      ∀ (xi1 : Vec F S1x8x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.FrameH

end
-- ==== Proof.FrameKernel.RunC.lean ====
/-
  The body at the last step of a core's sweep: the block's sum of squares is added to the accumulator, and the
  accumulator is then copied into the output block's buffer, found at anything.
-/
import proofs.«158940_j57629871178021_2_alg».proof.Proof.FrameKernel.RunB

set_option maxRecDepth 16384

noncomputable section

namespace Cert.Kernel.FrameH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last step: the pieces left in the output buffer and in the accumulator, with the proof that the body, given the
    input block at `x0`, the output buffer at anything and the accumulator at `xs0`, runs to a state holding the input
    unchanged and the two others with those pieces written. -/
noncomputable def kernelRun0_C (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) :
    Σ' (L1 : List (View.Piece (Elt F) S1x8x128 .f32)), { LS0 : List (View.Piece (Elt F) S8x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.FrameH

end
-- ==== Proof.FrameKernel.Frame.lean ====
/-
  The frame of the program: it runs to the end, faults nowhere, and leaves its arguments unchanged — together with
  what the region's result array holds afterwards.
  Per grid point the body is in one of three cases: step 0 of a core's sweep (the accumulator is reset, then the block's
  sum of squares added), a middle step (added), the last step (added, and the accumulator copied to the core's output
  block). `outsAt0` follows the pair (output block's buffer, accumulator) point by point; the proof data of the
  pipeline library are built from it, the body obligation is the three runs, and the library's launch theorem for a
  region between host operations gives the run of the whole program.
-/
import proofs.«158940_j57629871178021_2_alg».proof.Proof.FrameKernel.RunC

set_option maxRecDepth 16384

noncomputable section

namespace Cert.Kernel.FrameH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def out0_A_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) : Vec F S1x8x128 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) (y : S8x128.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S8x128.size (by sl_kernel_rfl) y

/-- The accumulator after step 0. -/
def sout0_A_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) : Vec F S8x128 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) : Vec F S1x8x128 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) (y : S8x128.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S8x128.size (by sl_kernel_rfl) y

/-- The accumulator after a middle step. -/
def sout0_B_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) : Vec F S8x128 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) (y : S1x8x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x8x128.size (by sl_kernel_rfl) y

/-- The output block's buffer after the last step. -/
def out0_C_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) : Vec F S1x8x128 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) (y : S8x128.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S8x128.size (by sl_kernel_rfl) y

/-- The accumulator after the last step. -/
def sout0_C_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) : Vec F S8x128 .f32 :=
  VS0_0.read (Elt F) (VS0_0.writes (Elt F) VS0_0.junk (kernelRun0_C c i arg2 harg2 arg3 harg3 arg4 harg4 hc0 hc1 x0 xs0).2.1)

/-! ## Point by point -/

/-- The pair (output block's buffer, accumulator) after the body at position `n`: the case the position is in, run on
    the point's block of the reshaped h and, after step 0, on the accumulator the position before left. -/
def outsAt0 (c : Dev nD) : (n : ℕ) → n < cfg0.N → Vec F S1x8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 14 = 0 then
      if h1 : (n + 1) % 14 = 13 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 14 = 13 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

theorem outsAt0_A (c : Dev nD) (t : Fin cfg0.N) (h0 : t.val % 14 = 0) (h1 : ¬t.val % 14 = 13) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 14 = 0) (h1 : ¬t.val % 14 = 13) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 14 = 0) (h1 : t.val % 14 = 13) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the
    position before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body at point `t` the input's buffer at
    its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's buffer holds its block; the closed forms say which case the point is in; the
    invariant hands the body the accumulator at what the point before left (at anything at the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 14 = 0
  · by_cases h1 : t.val % 14 = 13
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 14 = 13
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 28 := N_0; omega)

/-! ## The run and the frame -/

set_option backward.isDefEq.respectTransparency.types false in
/-- Every weakly fair execution of the program terminates, and in every final state the two arrays the region stages hold
    what the library computes from the proof data, every other unscoped buffer what the host operations after the region
    leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- An argument array is no array of the region, is written by no host operation, so ends as launched. -/
theorem tail_arg (c : Dev nD) (r : Ref sig .tc) (hr : r ∉ tailWrites) (hw : ∀ w, Pipeline.arrRef spec0 w ≠ r) :
    Pipeline.afterTail₀ cfgs (dats m) 0 (V0 m) tailOps c r = V m c r := by
  unfold Pipeline.afterTail₀
  rw [tail_keeps _ r hr]
  exact Pipeline.withArrays_of_ne _ c (V0 m c) _ r hw

/-- THE FRAME: the program runs to the end without a fault and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans ((tail_arg m c main_arg0 (by decide) (by decide)).trans (V_main_arg0 m c)),
     ((h c).2 main_arg1 (Pipeline.mem_restRefs_of main_arg1 (by decide) (by decide))).trans ((tail_arg m c main_arg1 (by decide) (by decide)).trans (V_main_arg1 m c)),
     ((h c).2 main_arg2 (Pipeline.mem_restRefs_of main_arg2 (by decide) (by decide))).trans ((tail_arg m c main_arg2 (by decide) (by decide)).trans (V_main_arg2 m c)),
     ((h c).2 main_arg3 (Pipeline.mem_restRefs_of main_arg3 (by decide) (by decide))).trans ((tail_arg m c main_arg3 (by decide) (by decide)).trans (V_main_arg3 m c))⟩) (run_main m ρ)

end Cert.Kernel.FrameH

end
-- ==== Proof.FrameKernelIdeal.Around.lean ====
/-
  The program around its one region. @main is: one reshape of h into the lane-dense (351232, 128) array, the
  region (a grid of 2 × 14 points, each reading one block of 12544 rows and adding its sum of squares into an
  (8, 128) accumulator that lives in scratch memory), then eighty-four host operations that read the region's
  (2, 8, 128) result and the argument arrays and write fresh buffers only.
  Here: the contents of every buffer when the region is entered (`V0`, `V`), @main as "prefix, region, suffix",
  the facts that the suffix writes neither an argument nor an array the region stages, the block of h a grid point
  reads (`iblk`), the two branch conditions of the body decided over the grid (step 0 of a core: reset the accumulator;
  step 13: copy it to the output block), and where the output window is idle.
-/
import proofs.«158940_j57629871178021_2_alg».proof.Proof.Gen.KernelIdeal.Launch
import proofs.«158940_j57629871178021_2_alg».proof.Proof.Gen.KernelIdeal.Skeleton
import proofs.«158940_j57629871178021_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2, hostOps1_3, hostOps1_4]

/-- Core `c`'s buffer contents when the region is entered: after the reshape of h. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the reshape, the region, and the later host operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every buffer a host operation after the region writes, in program order. -/
abbrev tailWrites : List (Ref sig .tc) :=
  [main_v2, main_v3, main_cst, main_v4, main_cst_0, main_v5, main_v6, main_v7, main_v8, main_v9, main_c, main_c_1,
   main_call0_v0, main_call0_v1, main_call0_v2, main_call0_v3, main_call0_v4, main_v10,
   main_v11, main_v12, main_c_2, main_c_3,
   main_call1_v0, main_call1_v1, main_call1_v2, main_call1_v3, main_call1_v4, main_v13,
   main_v14, main_c_4, main_v15, main_v16, main_v17, main_v18, main_v19, main_v20, main_v21, main_c_5, main_v22, main_v23,
   main_c_6, main_v24, main_v25, main_v26, main_c_7, main_v27, main_v28, main_c_8, main_v29, main_v30, main_v31,
   main_c_9, main_v32, main_v33, main_c_10, main_v34, main_v35, main_v36, main_c_11, main_v37, main_v38, main_c_12,
   main_v39, main_v40, main_v41, main_v42, main_v43, main_v44, main_v45, main_v46, main_v47, main_v48, main_v49,
   main_v50, main_cst_13, main_v51, main_cst_14, main_v52, main_cst_15, main_v53, main_v54, main_v55, main_cst_16, main_v56]

/-- An operation that writes its one result buffer, a member of the list, writes within the list. -/
theorem writes_sub_of {op : HloOp τ sig (Elt F)} {y : Ref sig .tc} (h : op.writes = {Proc.devRef .tc y}) (hy : y ∈ tailWrites) :
    op.writes ⊆ (tailWrites.map (Proc.devRef (τ := τ) .tc)).toFinset := by
  rw [h]; exact Finset.singleton_subset_iff.mpr (List.mem_toFinset.mpr (List.mem_map_of_mem hy))

theorem hostOps1_writes : (hostOps1 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_1_writes : (hostOps1_1 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_2_writes : (hostOps1_2 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_3_writes : (hostOps1_3 : List (HloOp τ sig (Elt F))).Forall fun op => op.writes ⊆ (tailWrites.map (Proc.devRef (τ := τ) .tc)).toFinset := by
  simp only [List.Forall]; repeat' apply And.intro
  all_goals exact writes_sub_of rfl (by decide)
theorem hostOps1_4_writes : (hostOps1_4 : List (HloOp τ sig (Elt F))).Forall fun op => op.writes ⊆ (tailWrites.map (Proc.devRef (τ := τ) .tc)).toFinset := by
  simp only [List.Forall]; repeat' apply And.intro
  all_goals exact writes_sub_of rfl (by decide)

/-- The whole suffix writes within the list. -/
theorem tail_writes : ((tailOps (F := F)).flatten).Forall fun op => op.writes ⊆ (tailWrites.map (Proc.devRef (τ := τ) .tc)).toFinset := by
  rw [List.forall_iff_forall_mem]
  intro op hop
  obtain ⟨ops, hops, hop⟩ := List.mem_flatten.mp hop
  simp only [List.mem_cons, List.mem_nil_iff, or_false] at hops
  rcases hops with rfl | rfl | rfl | rfl | rfl
  · exact (List.forall_iff_forall_mem.mp hostOps1_writes) op hop
  · exact (List.forall_iff_forall_mem.mp hostOps1_1_writes) op hop
  · exact (List.forall_iff_forall_mem.mp hostOps1_2_writes) op hop
  · exact (List.forall_iff_forall_mem.mp hostOps1_3_writes) op hop
  · exact (List.forall_iff_forall_mem.mp hostOps1_4_writes) op hop

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write neither array the region stages (the reshaped h and the region's result are not in the list). -/
theorem sfx_keeps : ∀ ops ∈ (tailOps : List (List (HloOp τ sig (Elt F)))), ∀ op ∈ ops,
    ∀ w, Proc.devRef .tc (Pipeline.arrRef spec0 w) ∉ op.writes := by
  intro ops hops op hop w hw
  have h := (List.forall_iff_forall_mem.mp (tail_writes (F := F))) op (List.mem_flatten.mpr ⟨ops, hops, hop⟩) hw
  obtain ⟨y, hy, he⟩ := List.mem_map.mp (List.mem_toFinset.mp h)
  have e : y = Pipeline.arrRef spec0 w := Proc.devRef_injective _ he
  subst e
  revert hy
  fin_cases w <;> decide

/-- A buffer outside the list holds after the suffix what it held before it. -/
theorem tail_keeps (W : Valuation τ sig (Elt F)) (r : Ref sig .tc) (hr : r ∉ tailWrites) :
    StableHlo.after ((tailOps (F := F)).flatten) W (Proc.devRef .tc r) = W (Proc.devRef .tc r) :=
  StableHlo.after_of_writes_sub _ W tail_writes hr

/-- The reshape before the region writes only its own result: the region finds each argument as launched. -/
theorem V_main_arg0 (c : Dev nD) : V m c main_arg0 = m ((c : Thread nD τ).loc main_arg0) :=
  StableHlo.after_of_writes_sub (W := [main_v0]) _ _ (by simp only [List.flatten_cons, List.flatten_nil, List.append_nil, List.Forall]; exact subset_of_eq (by rfl)) (by decide)
theorem V_main_arg1 (c : Dev nD) : V m c main_arg1 = m ((c : Thread nD τ).loc main_arg1) :=
  StableHlo.after_of_writes_sub (W := [main_v0]) _ _ (by simp only [List.flatten_cons, List.flatten_nil, List.append_nil, List.Forall]; exact subset_of_eq (by rfl)) (by decide)
theorem V_main_arg2 (c : Dev nD) : V m c main_arg2 = m ((c : Thread nD τ).loc main_arg2) :=
  StableHlo.after_of_writes_sub (W := [main_v0]) _ _ (by simp only [List.flatten_cons, List.flatten_nil, List.append_nil, List.Forall]; exact subset_of_eq (by rfl)) (by decide)
theorem V_main_arg3 (c : Dev nD) : V m c main_arg3 = m ((c : Thread nD τ).loc main_arg3) :=
  StableHlo.after_of_writes_sub (W := [main_v0]) _ _ (by simp only [List.flatten_cons, List.flatten_nil, List.append_nil, List.Forall]; exact subset_of_eq (by rfl)) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block of the reshaped h at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- "This is step 0 of the core's sweep" (the accumulator is reset), as the body computes it. -/
abbrev cond0_0 (i : grid0.Coords) : Prop := (Scalar.cmpi .ne (Scalar.extui (Scalar.cmpi .eq (BitVec.ofNat 32 (i 1).val) 0#32)) 0#32) = 1#1
/-- It holds at the points 0 and 14. -/
theorem hcond0_0 : ∀ t : Fin cfg0.N, cond0_0 (grid0.coords t) ↔ t.val % 14 = 0 :=
  (by decide +kernel : ∀ t : Fin grid0.N, cond0_0 (grid0.coords t) ↔ t.val % 14 = 0)

/-- "This is step 13, the last of the core's sweep" (the accumulator is copied out). -/
abbrev cond0_1 (i : grid0.Coords) : Prop := k0_cond2 i = 1#1
/-- It holds at the points 13 and 27. -/
theorem hcond0_1 : ∀ t : Fin cfg0.N, cond0_1 (grid0.coords t) ↔ t.val % 14 = 13 :=
  (by decide +kernel : ∀ t : Fin grid0.N, cond0_1 (grid0.coords t) ↔ t.val % 14 = 13)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated. -/
abbrev VO0_1 : View sig .tc .vmem S1x8x128 .f32 := (Memref.whole cc0_stg1_0 : Memref sig .tc .vmem S1x8x128 .f32).view
abbrev ms0_0 (t : Fin cfg0.N) : Memref sig .tc .vmem S12544x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x128 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0_0 : Memref sig .tc .vmem S8x128 .f32 := Memref.whole cc0_scratch0
abbrev VS0_0 : View sig .tc .vmem S8x128 .f32 := scM0_0.view

/-- The region's standing invariant: the accumulator owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.FrameH

end
-- ==== Proof.FrameKernelIdeal.RunA.lean ====
/-
  The body at step 0 of a core's sweep (not the last step): the accumulator, found at anything, is overwritten with
  zeros and then with zeros plus the block's sum of squares; the output block's buffer is not touched. The run is
  found by symbolic execution of the body's skeleton; what the accumulator ends with is recorded as the list of
  pieces the stores wrote, newest first.
-/
import proofs.«158940_j57629871178021_2_alg».proof.Proof.FrameKernelIdeal.Around

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Step 0: the pieces left in the accumulator, with the proof that the body, given the input block at `x0`, the output
    buffer at `xi1` and the accumulator at anything, runs to a state holding the first two unchanged and the
    accumulator with those pieces written. -/
noncomputable def kernelRun0_A (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) :
    Σ' (L1 : List (View.Piece (Elt F) S1x8x128 .f32)), { LS0 : List (View.Piece (Elt F) S8x128 .f32) //
      ∀ (xi1 : Vec F S1x8x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.FrameH

end
-- ==== Proof.FrameKernelIdeal.RunB.lean ====
/-
  The body at a middle step of a core's sweep (neither the first nor the last): the block's sum of squares is added
  to the accumulator, found at what the step before left; the output block's buffer is not touched.
-/
import proofs.«158940_j57629871178021_2_alg».proof.Proof.FrameKernelIdeal.RunA

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A middle step: the pieces left in the accumulator, with the proof that the body, given the input block at `x0`, the
    output buffer at `xi1` and the accumulator at `xs0`, runs to a state holding the first two unchanged and the
    accumulator with those pieces written. -/
noncomputable def kernelRun0_B (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) :
    Σ' (L1 : List (View.Piece (Elt F) S1x8x128 .f32)), { LS0 : List (View.Piece (Elt F) S8x128 .f32) //
      ∀ (xi1 : Vec F S1x8x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨[], ?_, fun xi1 E K => ?run⟩
  case run =>
    simp only [cc0__sumsq_kernel_eq_skeleton]; unfold cc0__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.FrameH

end
-- ==== Proof.FrameKernelIdeal.RunC.lean ====
/-
  The body at the last step of a core's sweep: the block's sum of squares is added to the accumulator, and the
  accumulator is then copied into the output block's buffer, found at anything.
-/
import proofs.«158940_j57629871178021_2_alg».proof.Proof.FrameKernelIdeal.RunB

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The last step: the pieces left in the output buffer and in the accumulator, with the proof that the body, given the
    input block at `x0`, the output buffer at anything and the accumulator at `xs0`, runs to a state holding the input
    unchanged and the two others with those pieces written. -/
noncomputable def kernelRun0_C (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) :
    Σ' (L1 : List (View.Piece (Elt F) S1x8x128 .f32)), { LS0 : List (View.Piece (Elt F) S8x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__sumsq_kernel i arg2 harg2 arg3 harg3 arg4 harg4) K } := by
  refine ⟨?_, ?_, fun E K => ?run⟩
  case run =>
    simp only [cc0__sumsq_kernel_eq_skeleton]; unfold cc0__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.FrameH

end
-- ==== Proof.FrameKernelIdeal.Frame.lean ====
/-
  The frame of the program: it runs to the end, faults nowhere, and leaves its arguments unchanged — together with
  what the region's result array holds afterwards.
  Per grid point the body is in one of three cases: step 0 of a core's sweep (the accumulator is reset, then the block's
  sum of squares added), a middle step (added), the last step (added, and the accumulator copied to the core's output
  block). `outsAt0` follows the pair (output block's buffer, accumulator) point by point; the proof data of the
  pipeline library are built from it, the body obligation is the three runs, and the library's launch theorem for a
  region between host operations gives the run of the whole program.
-/
import proofs.«158940_j57629871178021_2_alg».proof.Proof.FrameKernelIdeal.RunC

set_option maxRecDepth 16384

noncomputable section

namespace Cert.KernelIdeal.FrameH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

def out0_A_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) : Vec F S1x8x128 .f32 :=
  VO0_1.read (Elt F) (VO0_1.writes (Elt F) VO0_1.junk (kernelRun0_A c i arg2 harg2 arg3 harg3 arg4 harg4 hc0 hc1 x0).1)

theorem scover0_A_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) (y : S8x128.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S8x128.size (by sl_kernel_rfl) y

/-- The accumulator after step 0. -/
def sout0_A_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) : Vec F S8x128 .f32 :=
  VS0_0.read (Elt F) (VS0_0.writes (Elt F) VS0_0.junk (kernelRun0_A c i arg2 harg2 arg3 harg3 arg4 harg4 hc0 hc1 x0).2.1)

def out0_B_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) : Vec F S1x8x128 .f32 :=
  VO0_1.read (Elt F) (VO0_1.writes (Elt F) VO0_1.junk (kernelRun0_B c i arg2 harg2 arg3 harg3 arg4 harg4 hc0 hc1 x0 xs0).1)

theorem scover0_B_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) (y : S8x128.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S8x128.size (by sl_kernel_rfl) y

/-- The accumulator after a middle step. -/
def sout0_B_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) : Vec F S8x128 .f32 :=
  VS0_0.read (Elt F) (VS0_0.writes (Elt F) VS0_0.junk (kernelRun0_B c i arg2 harg2 arg3 harg3 arg4 harg4 hc0 hc1 x0 xs0).2.1)

theorem cover0_C_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) (y : S1x8x128.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x8x128.size (by sl_kernel_rfl) y

/-- The output block's buffer after the last step. -/
def out0_C_1 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) : Vec F S1x8x128 .f32 :=
  VO0_1.read (Elt F) (VO0_1.writes (Elt F) VO0_1.junk (kernelRun0_C c i arg2 harg2 arg3 harg3 arg4 harg4 hc0 hc1 x0 xs0).1)

theorem scover0_C_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) (y : S8x128.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S8x128.size (by sl_kernel_rfl) y

/-- The accumulator after the last step. -/
def sout0_C_0 (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) : Vec F S8x128 .f32 :=
  VS0_0.read (Elt F) (VS0_0.writes (Elt F) VS0_0.junk (kernelRun0_C c i arg2 harg2 arg3 harg3 arg4 harg4 hc0 hc1 x0 xs0).2.1)

/-! ## Point by point -/

/-- The pair (output block's buffer, accumulator) after the body at position `n`: the case the position is in, run on
    the point's block of the reshaped h and, after step 0, on the accumulator the position before left. -/
def outsAt0 (c : Dev nD) : (n : ℕ) → n < cfg0.N → Vec F S1x8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 14 = 0 then
      if h1 : (n + 1) % 14 = 13 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 14 = 13 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

theorem outsAt0_A (c : Dev nD) (t : Fin cfg0.N) (h0 : t.val % 14 = 0) (h1 : ¬t.val % 14 = 13) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 14 = 0) (h1 : ¬t.val % 14 = 13) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 14 = 0) (h1 : t.val % 14 = 13) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the
    position before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body at point `t` the input's buffer at
    its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's buffer holds its block; the closed forms say which case the point is in; the
    invariant hands the body the accumulator at what the point before left (at anything at the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 14 = 0
  · by_cases h1 : t.val % 14 = 13
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc m c t, PhiS_pos m c _ _ hz]
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 14 = 13
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      rw [outsAt0_C m c t h0 h1]
      unfold out0_C_1 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 28 := N_0; omega)

/-! ## The run and the frame -/

set_option backward.isDefEq.respectTransparency.types false in
/-- Every weakly fair execution of the program terminates, and in every final state the two arrays the region stages hold
    what the library computes from the proof data, every other unscoped buffer what the host operations after the region
    leave in it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- An argument array is no array of the region, is written by no host operation, so ends as launched. -/
theorem tail_arg (c : Dev nD) (r : Ref sig .tc) (hr : r ∉ tailWrites) (hw : ∀ w, Pipeline.arrRef spec0 w ≠ r) :
    Pipeline.afterTail₀ cfgs (dats m) 0 (V0 m) tailOps c r = V m c r := by
  unfold Pipeline.afterTail₀
  rw [tail_keeps _ r hr]
  exact Pipeline.withArrays_of_ne _ c (V0 m c) _ r hw

/-- THE FRAME: the program runs to the end without a fault and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans ((tail_arg m c main_arg0 (by decide) (by decide)).trans (V_main_arg0 m c)),
     ((h c).2 main_arg1 (Pipeline.mem_restRefs_of main_arg1 (by decide) (by decide))).trans ((tail_arg m c main_arg1 (by decide) (by decide)).trans (V_main_arg1 m c)),
     ((h c).2 main_arg2 (Pipeline.mem_restRefs_of main_arg2 (by decide) (by decide))).trans ((tail_arg m c main_arg2 (by decide) (by decide)).trans (V_main_arg2 m c)),
     ((h c).2 main_arg3 (Pipeline.mem_restRefs_of main_arg3 (by decide) (by decide))).trans ((tail_arg m c main_arg3 (by decide) (by decide)).trans (V_main_arg3 m c))⟩) (run_main m ρ)

end Cert.KernelIdeal.FrameH

end
-- ==== Proof.FrameKernelIdeal.Pieces.lean ====
/-
  What the runs found, read back as values. Each case's pieces are the body's own arithmetic: step 0 leaves in the
  accumulator the zero block plus the block's sum of squares, a later step what was there plus the block's sum of
  squares, and the last step also copies the accumulator into the output block's buffer. So the accumulator after
  each position is a fold along the sweep (`acc`), by induction on the position.
-/
import proofs.«158940_j57629871178021_2_alg».proof.Proof.FrameKernelIdeal.Frame
import Idealize.ShloMosaic.Lib.Pipeline.Value

set_option maxRecDepth 16384

noncomputable section

namespace Cert.KernelIdeal.FrameH

open Cert.KernelIdeal Cert.KernelIdeal.Gen
open Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the found pieces are -/

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the accumulator its contents plus the block's sum of squares. -/
theorem sout_B (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : ¬cond0_1 i)
    (x0 : Vec F S12544x128 .f32) (xs0 : Vec F S8x128 .f32) :
    sout0_B_0 c i arg2 harg2 arg3 harg3 arg4 harg4 hc0 hc1 x0 xs0 = k0_pay2 x0 xs0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero hz2]
  simp only [View.readAt_eq_ld, harg2.read_unread, harg4.read_unread, View.ld_unit_zero (S := S12544x128) hz2, View.ld_unit_zero (S := S8x128) hz2]

/-- The last step leaves the same in the accumulator, -/
theorem sout_C (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) :
    sout0_C_0 c i arg2 harg2 arg3 harg3 arg4 harg4 hc0 hc1 x0 xs0 = k0_pay2 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz2]
  simp only [View.readAt_eq_ld, harg2.read_unread, harg4.read_unread, View.ld_unit_zero (S := S12544x128) hz2, View.ld_unit_zero (S := S8x128) hz2]

/-- and in the output block's buffer a copy of it. -/
theorem out_C (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : ¬cond0_0 i) (hc1 : cond0_1 i)
    (x0 : Vec F S12544x128 .f32) (xs0 : Vec F S8x128 .f32) :
    out0_C_1 c i arg2 harg2 arg3 harg3 arg4 harg4 hc0 hc1 x0 xs0 = k0_pay3 (k0_pay2 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz3, View.readCov_unit_zero (S := S8x128) _ hz2]
  simp only [View.readAt_eq_ld, harg2.read_unread, harg4.read_unread, View.ld_unit_zero (S := S12544x128) hz2, View.ld_unit_zero (S := S8x128) hz2]

/-- Step 0 leaves in the accumulator zero plus the block's sum of squares. -/
theorem sout_A (c : Dev nD) (i : grid0.Coords) (arg2 : Memref sig .tc .vmem S12544x128 .f32) (harg2 : arg2.IsWhole) (arg3 : Memref sig .tc .vmem S1x8x128 .f32) (harg3 : arg3.IsWhole) (arg4 : Memref sig .tc .vmem S8x128 .f32) (harg4 : arg4.IsWhole) (hc0 : cond0_0 i) (hc1 : ¬cond0_1 i)
    (x0 : Vec F S12544x128 .f32) :
    sout0_A_0 c i arg2 harg2 arg3 harg3 arg4 harg4 hc0 hc1 x0 = k0_pay2 x0 (k0_pay1 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S8x128) hz2, View.readCov_unit_zero (S := S8x128) _ hz2]
  simp only [View.readAt_eq_ld, harg2.read_unread, View.ld_unit_zero (S := S12544x128) hz2]

/-! ## The accumulator, point by point -/

/-- The accumulator after position `n`, by the body's arithmetic: at step 0 of a sweep the zero block, afterwards
    what the position before left, in both cases plus the sum of squares of the position's block of the reshaped h. -/
def acc (c : Dev nD) : (n : ℕ) → n < cfg0.N → Vec F S8x128 .f32
  | 0, h => k0_pay2 (iblk m c 0 ⟨0, h⟩) (k0_pay1 (F := F))
  | n + 1, h => if (n + 1) % 14 = 0 then k0_pay2 (iblk m c 0 ⟨n + 1, h⟩) (k0_pay1 (F := F))
      else k0_pay2 (iblk m c 0 ⟨n + 1, h⟩) (acc c n (Nat.lt_of_succ_lt h))

/-- What the run leaves in the accumulator after each position is that. -/
theorem outsAt_snd (c : Dev nD) : ∀ (n : ℕ) (h : n < cfg0.N), (outsAt0 m c n h).2 = acc m c n h
  | 0, h => by
    rw [outsAt0_A m c ⟨0, h⟩ rfl (show ¬(0 % 14 = 13) by decide)]
    dsimp only
    rw [sout_A]
    rfl
  | n + 1, h => by
    by_cases h0 : (n + 1) % 14 = 0
    · have h1 : ¬(n + 1) % 14 = 13 := by omega
      rw [outsAt0_A m c ⟨n + 1, h⟩ h0 h1]
      dsimp only
      rw [sout_A]
      simp only [acc, if_pos h0]
    · by_cases h1 : (n + 1) % 14 = 13
      · rw [outsAt0_C m c ⟨n + 1, h⟩ h0 h1]
        dsimp only
        rw [sout_C]
        simp only [acc, if_neg h0]
        exact congrArg _ (outsAt_snd c n _)
      · rw [outsAt0_B m c ⟨n + 1, h⟩ h0 h1]
        dsimp only
        rw [sout_B]
        simp only [acc, if_neg h0]
        exact congrArg _ (outsAt_snd c n _)

/-- At the last step of a sweep the output block's buffer is left holding a copy of the accumulator. -/
theorem outsAt_fst (c : Dev nD) (n : ℕ) (h : n < cfg0.N) (h1 : n % 14 = 13) :
    (outsAt0 m c n h).1 = k0_pay3 (acc m c n h) := by
  cases n with
  | zero => exact absurd h1 (by decide)
  | succ n =>
    have h0 : ¬(n + 1) % 14 = 0 := by omega
    rw [outsAt0_C m c ⟨n + 1, h⟩ h0 h1]
    dsimp only
    rw [out_C]
    simp only [acc, if_neg h0]
    exact congrArg (fun z => k0_pay3 (k0_pay2 _ z)) (outsAt_snd m c n _)

end Cert.KernelIdeal.FrameH

end
-- ==== Proof.LibBlockSum.lean ====
import Idealize.ShloMosaic.Lib.ValueIdx
import Mathlib.Algebra.BigOperators.Group.Finset.Sigma
import Mathlib.Data.Fintype.BigOperators

/-!
# A sum over the rows of a matrix, taken block of rows by block of rows

A matrix with R = nb · rb rows and C columns is cut into nb consecutive blocks of rb rows. Row a of
block t is row t · rb + a of the matrix. Every entry of the matrix lies in exactly one block (the
block number is the row divided by rb, the row inside the block is the remainder), so the sum of any
function of the entries, taken block by block, is the sum over the whole matrix. The values live in
any additive commutative monoid.
-/

open scoped BigOperators

namespace Cert.LibBlockSum

open Idealize.ShloMosaic Idealize.ShloMosaic.ValueIdx

/-- Division with remainder is unique: a number written as t · rb + a with a < rb determines t
    and a. -/
theorem block_row_unique {rb a a' t t' : Nat} (ha : a < rb) (ha' : a' < rb)
    (h : t * rb + a = t' * rb + a') : t = t' ∧ a = a' := by
  have hpos : 0 < rb := by omega
  have e1 : (t * rb + a) / rb = t := by
    rw [Nat.add_comm, Nat.add_mul_div_right _ _ hpos, Nat.div_eq_of_lt ha, Nat.zero_add]
  have e2 : (t' * rb + a') / rb = t' := by
    rw [Nat.add_comm, Nat.add_mul_div_right _ _ hpos, Nat.div_eq_of_lt ha', Nat.zero_add]
  have ht : t = t' := by rw [← e1, h, e2]
  subst ht
  exact ⟨rfl, by omega⟩

/-- The map (block number, index inside the block) ↦ index of the whole matrix is a bijection,
    as soon as it sends (t, (a, b)) to (t · rb + a, b). -/
theorem row_bijective {nb rb C R : Nat} (hR : R = nb * rb)
    (row : Fin nb → (⟨2, ![rb, C]⟩ : Shape).Idx → (⟨2, ![R, C]⟩ : Shape).Idx)
    (hrow : ∀ t q, (row t q 0).val = t.val * rb + (q 0).val ∧ (row t q 1).val = (q 1).val) :
    Function.Bijective (fun x : Fin nb × (⟨2, ![rb, C]⟩ : Shape).Idx => row x.1 x.2) := by
  constructor
  · -- injective: equal rows of the matrix have equal block numbers and equal rows in the block
    rintro ⟨t, q⟩ ⟨t', q'⟩ h
    have h0 : (row t q 0).val = (row t' q' 0).val := congrArg (fun i => (i 0).val) h
    have h1 : (row t q 1).val = (row t' q' 1).val := congrArg (fun i => (i 1).val) h
    rw [(hrow t q).1, (hrow t' q').1] at h0
    rw [(hrow t q).2, (hrow t' q').2] at h1
    obtain ⟨ht, ha⟩ := block_row_unique (idx2_lt0 q) (idx2_lt0 q') h0
    have hq : q = q' := by
      funext d
      match d with
      | ⟨0, _⟩ => exact Fin.ext ha
      | ⟨1, _⟩ => exact Fin.ext h1
    rw [Fin.ext ht, hq]
  · -- surjective: row r of the matrix is row r mod rb of block r div rb
    intro r
    have hr0 : (r 0).val < nb * rb := hR ▸ idx2_lt0 r
    have hpos : 0 < rb := by
      rcases Nat.eq_zero_or_pos rb with h | h
      · rw [h, Nat.mul_zero] at hr0; exact absurd hr0 (Nat.not_lt_zero _)
      · exact h
    have ht : (r 0).val / rb < nb := Nat.div_lt_of_lt_mul (by rwa [Nat.mul_comm] at hr0)
    refine ⟨(⟨(r 0).val / rb, ht⟩,
      ix2 (⟨(r 0).val % rb, Nat.mod_lt _ hpos⟩ : Fin rb) (⟨(r 1).val, idx2_lt1 r⟩ : Fin C)), ?_⟩
    funext d
    match d with
    | ⟨0, _⟩ => exact Fin.ext (((hrow _ _).1).trans (Nat.div_add_mod' _ _))
    | ⟨1, _⟩ => exact Fin.ext ((hrow _ _).2)

/-- The sum over a matrix of R = nb · rb rows is the sum, over the nb blocks of rb consecutive
    rows, of the sums over the blocks. -/
theorem sum_blocks_of_eq {M : Type} [AddCommMonoid M] {nb rb C R : Nat} (hR : R = nb * rb)
    (f : (⟨2, ![R, C]⟩ : Shape).Idx → M)
    (row : Fin nb → (⟨2, ![rb, C]⟩ : Shape).Idx → (⟨2, ![R, C]⟩ : Shape).Idx)
    (hrow : ∀ t q, (row t q 0).val = t.val * rb + (q 0).val ∧ (row t q 1).val = (q 1).val) :
    ∑ t : Fin nb, ∑ q, f (row t q) = ∑ r, f r :=
  (Fintype.sum_prod_type' (fun t q => f (row t q))).symm.trans
    (Fintype.sum_bijective _ (row_bijective hR row hrow) _ _ (fun _ => rfl))

/-- The same with the number of rows written as the product nb · rb. -/
theorem sum_blocks {M : Type} [AddCommMonoid M] (nb rb C : Nat)
    (f : (⟨2, ![nb * rb, C]⟩ : Shape).Idx → M)
    (row : Fin nb → (⟨2, ![rb, C]⟩ : Shape).Idx → (⟨2, ![nb * rb, C]⟩ : Shape).Idx)
    (hrow : ∀ t q, (row t q 0).val = t.val * rb + (q 0).val ∧ (row t q 1).val = (q 1).val) :
    ∑ t : Fin nb, ∑ q, f (row t q) = ∑ r, f r :=
  sum_blocks_of_eq rfl f row hrow

end Cert.LibBlockSum
-- ==== Proof.KerPayload.lean ====
import proofs.«158940_j57629871178021_2_alg».proof.Proof.Gen.KernelIdeal.Skeleton
import proofs.«158940_j57629871178021_2_alg».proof.Proof.LibBlockSum
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
The three values the kernel body stores, read at an index over the extended reals, and the two
re-indexings of the total sum of squares.

* the reset value is the constant 0;
* the accumulating store writes, in every cell, the previous cell plus the sum of the squares of
  ALL entries of the block that was read (the same total in all 8 × 128 cells);
* the copy to the output block reads the accumulator at the same row and column;
* the 351232 rows of the flat array are 28 consecutive blocks of 12544 rows, so the block sums add
  up to the sum over the flat array;
* the flat array is the four-axis array h in row-major order, so the two have the same sum of
  squares.
-/

namespace Cert.KerPayload

open Cert.KernelIdeal Cert.KernelIdeal.Gen Idealize.ShloMosaic Idealize.ShloMosaic.ValueIdx

/-- The reset value: every cell is the real number 0. -/
theorem pay1_apply (y : S8x128.Idx) : k0_pay1 (F := Ideal) y = 0 := by
  unfold k0_pay1
  rw [shapeCast_self]
  exact Ideal.ofBits_zero_f32

/-- The shape with one entry has one index. -/
theorem idx_one_eq (i j : S1.Idx) : i = j :=
  funext fun a => match a with
    | ⟨0, h⟩ => Fin.ext (by
        have h1 : (i ⟨0, h⟩).val < 1 := (i ⟨0, h⟩).isLt
        have h2 : (j ⟨0, h⟩).val < 1 := (j ⟨0, h⟩).isLt
        omega)

/-- A vector of one entry viewed as a 1 × 1 × 1 array and read at (0, 0, 0) is that one entry. -/
theorem extract_cast_one {α : Type} (v : S1.Idx → α) :
    extractAt ![0, 0, 0] (shapeCast S1x1x1 v shapeCasts_S1_S1x1x1) inpos_S1x1x1_p0_0_0
      = v (ix1 (0 : Fin 1)) :=
  congrArg v (idx_one_eq _ _)

/-- The accumulating store: each cell of the accumulator receives its old value plus the sum of
    the squares of all entries of the block. -/
theorem pay2_apply (v3 : Vec Ideal S12544x128 .f32) (v5 : Vec Ideal S8x128 .f32) (y : S8x128.Idx) :
    k0_pay2 v3 v5 y = v5 y + ∑ q : S12544x128.Idx, v3 q * v3 q := by
  unfold k0_pay2
  rw [shapeCast_self, shapeCast_self]
  show v5 y + _ = _
  refine congrArg (v5 y + ·) ?_
  -- the broadcast scalar is the one entry of the reduced vector
  rw [broadcast_apply, extract_cast_one]
  -- a sum over axes 1 and 2 into a vector of one entry is the sum over ALL indices of the
  -- (1, 12544, 128) view of the squares
  refine (Ideal.multiReduction_add_total _ _ _ (by decide) _ _ _).trans ?_
  -- and that view enumerates the block's entries once each
  exact Equiv.sum_comp (Shape.reshapeEquiv shapeCasts_S12544x128_S1x12544x128)
    (fun q : S12544x128.Idx => v3 q * v3 q)

/-- The copy to the output block: cell (0, r, c) of the block reads the accumulator at (r, c). -/
theorem pay3_apply (v19 : Vec Ideal S8x128 .f32) (u : Fin 1) (r : Fin 8) (c : Fin 128) :
    k0_pay3 v19 (ix3 u r c) = v19 (ix2 r c) := by
  unfold k0_pay3
  exact shapeCast_ab_1ab_apply v19 _ u r c

/-- The same at an arbitrary index of the block. -/
theorem pay3_apply' (v19 : Vec Ideal S8x128 .f32) (y : S1x8x128.Idx) :
    k0_pay3 v19 y = v19 (ix2 (y 1) (y 2)) := by
  rw [eq_ix3 y]
  exact pay3_apply v19 _ _ _

/-- The 351232 rows are 28 consecutive blocks of 12544 rows: summing block by block gives the sum
    over the whole flat array. -/
theorem sum_blocks_28 {M : Type} [AddCommMonoid M] (f : S351232x128.Idx → M)
    (row : Fin 28 → S12544x128.Idx → S351232x128.Idx)
    (hrow : ∀ t q, (row t q 0).val = t.val * 12544 + (q 0).val ∧ (row t q 1).val = (q 1).val) :
    ∑ t : Fin 28, ∑ q, f (row t q) = ∑ r, f r :=
  Cert.LibBlockSum.sum_blocks_of_eq (nb := 28) (rb := 12544) (C := 128) (R := 351232)
    (by norm_num) f row hrow

/-- The flat (351232, 128) array is the four-axis array in row-major order: every entry occurs
    once, so the sums of squares agree. -/
theorem sum_reshape (h : S16384x14x14x14.Idx → EReal)
    (hc : S16384x14x14x14.ShapeCasts S351232x128) :
    ∑ r : S351232x128.Idx, shapeCast S351232x128 h hc r * shapeCast S351232x128 h hc r
      = ∑ p : S16384x14x14x14.Idx, h p * h p :=
  Equiv.sum_comp (Shape.reshapeEquiv hc) (fun p : S16384x14x14x14.Idx => h p * h p)

end Cert.KerPayload
-- ==== Proof.KerAccum.lean ====
import proofs.«158940_j57629871178021_2_alg».proof.Proof.KerPayload

/-!
The accumulator over a sweep. One core visits 14 consecutive blocks; at the first of them the
accumulator is reset to zero before the block's sum of squares is added, at the others the sum of
squares is added to what the previous position left. So after position j of sweep k every cell of
the accumulator holds the sum of squares of the blocks 14 k, …, 14 k + j. Two sweeps of 14 together
run over the 28 blocks.
-/

noncomputable section

namespace Cert.KerAccum

open Cert.KernelIdeal Cert.KernelIdeal.Gen Idealize.ShloMosaic

/-- The sum of squares of one block. -/
def bsum (v : Vec Ideal S12544x128 .f32) : EReal := ∑ q : S12544x128.Idx, v q * v q

/-- The accumulator after position n, by the body's arithmetic: reset to zero before the add at
    every position that is a multiple of 14. -/
def accOf (blk : ℕ → Vec Ideal S12544x128 .f32) : ℕ → Vec Ideal S8x128 .f32
  | 0 => k0_pay2 (blk 0) (k0_pay1 (F := Ideal))
  | n + 1 =>
    if (n + 1) % 14 = 0 then k0_pay2 (blk (n + 1)) (k0_pay1 (F := Ideal))
    else k0_pay2 (blk (n + 1)) (accOf blk n)

/-- Adding a block to the reset accumulator leaves the block's sum of squares in every cell. -/
theorem pay2_reset (v : Vec Ideal S12544x128 .f32) (y : S8x128.Idx) :
    k0_pay2 v (k0_pay1 (F := Ideal)) y = bsum v := by
  rw [Cert.KerPayload.pay2_apply, Cert.KerPayload.pay1_apply, zero_add]
  rfl

/-- At the first position of a sweep the accumulator holds that block's sum of squares. -/
theorem accOf_first (blk : ℕ → Vec Ideal S12544x128 .f32) (n : ℕ) (hn : n % 14 = 0) (y : S8x128.Idx) :
    accOf blk n y = bsum (blk n) := by
  cases n with
  | zero => exact pay2_reset _ y
  | succ n =>
    rw [accOf, if_pos hn]
    exact pay2_reset _ y

/-- At any other position the block's sum of squares is added to the previous value. -/
theorem accOf_succ (blk : ℕ → Vec Ideal S12544x128 .f32) (n : ℕ) (hn : (n + 1) % 14 ≠ 0)
    (y : S8x128.Idx) : accOf blk (n + 1) y = accOf blk n y + bsum (blk (n + 1)) := by
  rw [accOf, if_neg hn, Cert.KerPayload.pay2_apply]
  rfl

/-- After position j of sweep k every cell holds the sum of squares of the blocks of the sweep up to
    and including j. -/
theorem accOf_apply (blk : ℕ → Vec Ideal S12544x128 .f32) (k j : ℕ) (hj : j < 14) (y : S8x128.Idx) :
    accOf blk (14 * k + j) y = ∑ s ∈ Finset.range (j + 1), bsum (blk (14 * k + s)) := by
  induction j with
  | zero =>
    rw [Finset.sum_range_one]
    exact accOf_first blk (14 * k + 0) (by omega) y
  | succ j ih =>
    rw [Finset.sum_range_succ _ (j + 1), ← ih (by omega)]
    exact accOf_succ blk (14 * k + j) (by omega) y

/-- Two sweeps of 14 positions are the 28 positions. -/
theorem two_sweeps (f : ℕ → EReal) :
    (∑ s ∈ Finset.range 14, f s) + (∑ s ∈ Finset.range 14, f (14 + s)) = ∑ t : Fin 28, f t.val :=
  (Finset.sum_range_add f 14 14).symm.trans (Fin.sum_univ_eq_sum_range f 28).symm

end Cert.KerAccum

end
-- ==== Proof.KerTail.lean ====
import proofs.«158940_j57629871178021_2_alg».proof.Proof.Gen.KernelIdeal
import Idealize.ShloMosaic.PureOps.Ideal
import Idealize.ShloMosaic.PureOps.Ideal.Laws
import Idealize.ShloMosaic.Lib.ValueIdx
import Idealize.ShloMosaic.Lib.Pipeline.Value

/-!
The host sums after the kernel, over the extended reals. A sum over all axes from the zero word is
the plain sum of all entries. The per-core totals are read from cell (c, 0, 0) of the (2, 8, 128)
result, so their sum is the entry at (0, 0, 0) plus the entry at (1, 0, 0).
-/

namespace Cert.KerTail

open Cert.KernelIdeal Cert.KernelIdeal.Facts₀ Idealize.ShloMosaic Idealize.ShloMosaic.ValueIdx

/-- A host sum over every axis, started from the zero word, is the sum of all entries. -/
theorem reduce_all {s : Shape} {axes : List (Fin s.rank)} (x : s.Idx → EReal)
    (h : s.ReducesTo axes S_) (i : S_.Idx) :
    Host.reduceAdd (F := Ideal) (φ := .f32) x (constant (F := Ideal) S_ .f32 0x00000000#32) h h_S_ i
      = ∑ j : s.Idx, x j := by
  simp only [Host.reduceAdd, Ideal.hostReduceAdd_def]
  rw [Ideal.hostReduceAdd_total h (fun b => b.elim0) x _ i, constant_apply, Ideal.ofBits_zero_f32,
    zero_add]

/-- The sum of a (16384, 14) array over both axes. -/
theorem sum_all (x : S16384x14.Idx → EReal) (i : S_.Idx) :
    Host.reduceAdd (F := Ideal) x (constant (F := Ideal) S_ .f32 0x00000000#32)
      reducesTo_S16384x14_S_d0_1 h_S_ i = ∑ j : S16384x14.Idx, x j :=
  reduce_all x _ i

/-- A vector of n entries is indexed by its one coordinate. -/
def idxEquiv1 {n : Nat} : (⟨1, ![n]⟩ : Shape).Idx ≃ Fin n where
  toFun i := i 0
  invFun a := ix1 a
  left_inv i := (eq_ix1 i).symm
  right_inv _ := rfl

/-- A sum over a vector of two entries is the sum of the two. -/
theorem sum_two (w : S2.Idx → EReal) : ∑ j : S2.Idx, w j = w (ix1 (0 : Fin 2)) + w (ix1 (1 : Fin 2)) := by
  rw [← Equiv.sum_comp (idxEquiv1 (n := 2)).symm w, Fin.sum_univ_two]
  rfl

/-- Entry c of the vector of per-core totals is cell (c, 0, 0) of the kernel's result: the slice keeps
    the cells (c, 0, 0) and the reshape lists them in order. -/
theorem total_entry (out : S2x8x128.Idx → EReal) (c : Fin 2) :
    shapeCast S2 (extractStridedSlice S2x1x1 ![0, 0, 0] out slices_S2x8x128_S2x1x1_0_0_0)
        shapeCasts_S2x1x1_S2 (ix1 c)
      = out (ix3 c (0 : Fin 8) (0 : Fin 128)) := by
  refine (shapeCast_apply _ _ (ix1 c) (ix3 c (0 : Fin 1) (0 : Fin 1)) ?_).trans ?_
  · rw [Shape.rowMajor_val_three, Shape.rowMajor_val_one]
    show (c.val * 1 + 0) * 1 + 0 = c.val
    omega
  · refine extractStridedSlice_apply _ _ _ _ _ (fun a => ?_)
    match a with
    | ⟨0, _⟩ => exact (Nat.zero_add _).symm
    | ⟨1, _⟩ => rfl
    | ⟨2, _⟩ => rfl

/-- The sum of the two per-core totals. -/
theorem core_total (out : S2x8x128.Idx → EReal) (i : S_.Idx) :
    Host.reduceAdd (F := Ideal)
        (shapeCast S2 (extractStridedSlice S2x1x1 ![0, 0, 0] out slices_S2x8x128_S2x1x1_0_0_0)
          shapeCasts_S2x1x1_S2)
        (constant (F := Ideal) S_ .f32 0x00000000#32) reducesTo_S2_S_d0 h_S_ i
      = out (ix3 (0 : Fin 2) (0 : Fin 8) (0 : Fin 128)) + out (ix3 (1 : Fin 2) (0 : Fin 8) (0 : Fin 128)) := by
  rw [reduce_all, sum_two, total_entry, total_entry]

end Cert.KerTail
-- ==== Proof.KernelValue.lean ====
/-
  The value of the region at the exact instance. With floats read as extended reals, the accumulator after a core's
  fourteenth step holds the sum, over the core's fourteen blocks of h reshaped to (351232, 128), of each block's sum of
  squares; the last step copies it into the core's block of the (2, 8, 128) result, and those two write-backs cover
  the result array. Since the 28 blocks tile the reshaped h and the reshape is a bijection of indices, the two cores'
  totals add up to the sum of the squares of all entries of h.
-/
import proofs.«158940_j57629871178021_2_alg».proof.Proof.FrameKernelIdeal.Pieces
import proofs.«158940_j57629871178021_2_alg».proof.Proof.KerAccum
import proofs.«158940_j57629871178021_2_alg».proof.Proof.KerPayload
import proofs.«158940_j57629871178021_2_alg».proof.Proof.KerTail

set_option maxRecDepth 16384

noncomputable section

namespace Cert.KernelIdeal.ValueH

open Cert.KernelIdeal Cert.KernelIdeal.Gen Cert.KernelIdeal.FrameH Cert.KerAccum Cert.KerPayload
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Block `n` of the reshaped h (zero past the grid). -/
def blkN (c : Dev nD) (n : ℕ) : Vec Ideal S12544x128 .f32 :=
  if h : n < cfg0.N then iblk m c 0 ⟨n, h⟩ else fun _ => 0

theorem blkN_of_lt (c : Dev nD) (n : ℕ) (h : n < cfg0.N) : blkN m c n = iblk m c 0 ⟨n, h⟩ := dif_pos h

/-- The accumulator's fold over the grid is the fold over the blocks. -/
theorem acc_eq (c : Dev nD) : ∀ (n : ℕ) (h : n < cfg0.N), acc m c n h = accOf (blkN m c) n
  | 0, h => by simp only [acc, accOf, blkN_of_lt m c 0 h]
  | n + 1, h => by simp only [acc, accOf, blkN_of_lt m c (n + 1) h, acc_eq c n (Nat.lt_of_succ_lt h)]

/-- What the region's result array ends holding: in core `k`'s block, everywhere, the sum over the core's fourteen
    blocks of their sums of squares. -/
def G (c : Dev nD) : S2x8x128.Idx → EReal :=
  fun p => ∑ s ∈ Finset.range 14, bsum (blkN m c (14 * (p 0).val + s))

/-- The output window's block index at a point is (the core, 0, 0). -/
theorem idx1_facts : ∀ t : Fin cfg0.N, win0_1.index t 0 = t.val / 14 ∧ win0_1.index t 1 = 0 ∧ win0_1.index t 2 = 0 :=
  (by decide +kernel : ∀ t : Fin grid0.N, win0_1.index t 0 = t.val / 14 ∧ win0_1.index t 1 = 0 ∧ win0_1.index t 2 = 0)

theorem flushed_eq (c : Dev nD) (t : Fin cfg0.N) (hf : (cfg0.win 1).flush t = true) :
    (dats m 0 c).flushed 1 t = ((cfg0.win 1).blk t).view.read (Elt Ideal) (G m c) := by
  have h13 : t.val % 14 = 13 := (flush0_1 t).mp hf
  show (cfg0.win 1).cut (grid0.coords t) ((dats m 0 c).after 1 t) = _
  rw [after0_1, outsAt_fst m c t.val t.isLt h13]
  funext y
  rw [View.read_apply]
  show k0_pay3 (acc m c t.val t.isLt) ((cfg0.win 1).xinj (grid0.coords t) y) = G m c (((cfg0.win 1).blk t).view.emb y)
  rw [pay3_apply', acc_eq]
  have ht : t.val = 14 * (t.val / 14) + 13 := by omega
  have e : accOf (blkN m c) (14 * (t.val / 14) + 13) (ValueIdx.ix2 (((cfg0.win 1).xinj (grid0.coords t) y) 1) (((cfg0.win 1).xinj (grid0.coords t) y) 2))
      = ∑ s ∈ Finset.range 14, bsum (blkN m c (14 * (t.val / 14) + s)) :=
    accOf_apply (blkN m c) (t.val / 14) 13 (by decide) _
  rw [← ht] at e
  rw [e]
  unfold G
  have e0 : ((((cfg0.win 1).blk t).view.emb y) 0).val = t.val / 14 := by
    show win0_1.index t 0 * 1 + 1 * (y 0).val = _
    have h1 : (y 0).val < 1 := (y 0).isLt
    rw [(idx1_facts t).1]; omega
  rw [e0]

theorem xsize1_facts : ∀ t : Fin cfg0.N, win0_1.xsize (grid0.coords t) 0 = 1 ∧ win0_1.xsize (grid0.coords t) 1 = 8 ∧ win0_1.xsize (grid0.coords t) 2 = 128 :=
  (by decide +kernel : ∀ t : Fin grid0.N, win0_1.xsize (grid0.coords t) 0 = 1 ∧ win0_1.xsize (grid0.coords t) 1 = 8 ∧ win0_1.xsize (grid0.coords t) 2 = 128)

/-- The result array ends holding `G`: every cell lies in the block its core's last step writes back. -/
theorem final (c : Dev nD) : (dats m 0 c).arrAt 1 cfg0.N = G m c :=
  (dats m 0 c).arrAt_eq_of_cover 1 (G m c) (flushed_eq m c) fun i => by
    have hi0 : (i 0 : Nat) < 2 := (i 0).isLt
    have hi1 : (i 1 : Nat) < 8 := (i 1).isLt
    have hi2 : (i 2 : Nat) < 128 := (i 2).isLt
    have hN : cfg0.N = 28 := N_0
    have hlt : 14 * (i 0 : Nat) + 13 < cfg0.N := by omega
    refine ⟨⟨14 * (i 0 : Nat) + 13, hlt⟩, (flush0_1 _).mpr (by show (14 * (i 0 : Nat) + 13) % 14 = 13; omega), ?_⟩
    show i ∈ ((View.whole main_v1).slice (win0_1.rect ⟨14 * (i 0 : Nat) + 13, hlt⟩)).set
    rw [View.set_slice_whole, Rect.mem_set_unit]
    intro a
    have hx := xsize1_facts ⟨14 * (i 0 : Nat) + 13, hlt⟩
    have hd := idx1_facts ⟨14 * (i 0 : Nat) + 13, hlt⟩
    match a with
    | ⟨0, _⟩ =>
      show win0_1.index ⟨14 * (i 0 : Nat) + 13, hlt⟩ 0 * win0_1.size 0 ≤ (i 0 : Nat) ∧ (i 0 : Nat) < win0_1.index ⟨14 * (i 0 : Nat) + 13, hlt⟩ 0 * win0_1.size 0 + win0_1.xsize (grid0.coords ⟨14 * (i 0 : Nat) + 13, hlt⟩) 0
      rw [hd.1, hx.1, show win0_1.size 0 = 1 from rfl]; dsimp only; omega
    | ⟨1, _⟩ =>
      show win0_1.index ⟨14 * (i 0 : Nat) + 13, hlt⟩ 1 * win0_1.size 1 ≤ (i 1 : Nat) ∧ (i 1 : Nat) < win0_1.index ⟨14 * (i 0 : Nat) + 13, hlt⟩ 1 * win0_1.size 1 + win0_1.xsize (grid0.coords ⟨14 * (i 0 : Nat) + 13, hlt⟩) 1
      rw [hd.2.1, hx.2.1]; omega
    | ⟨2, _⟩ =>
      show win0_1.index ⟨14 * (i 0 : Nat) + 13, hlt⟩ 2 * win0_1.size 2 ≤ (i 2 : Nat) ∧ (i 2 : Nat) < win0_1.index ⟨14 * (i 0 : Nat) + 13, hlt⟩ 2 * win0_1.size 2 + win0_1.xsize (grid0.coords ⟨14 * (i 0 : Nat) + 13, hlt⟩) 2
      rw [hd.2.2, hx.2.2]; omega

/-! ## The blocks' sums of squares add up to the sum of squares of h -/

/-- The region finds, in the input window's array, h reshaped to (351232, 128). -/
theorem V_main_v0 (c : Dev nD) : (V m c main_v0 : S351232x128.Idx → EReal)
    = shapeCast S351232x128 (m ((c : Thread nD τ).loc main_arg1)) shapeCasts_S16384x14x14x14_S351232x128 := by
  dsimp only [V, V0]
  simp only [hostOps0, List.flatten_cons, List.flatten_nil, List.append_nil]
  after_results; rfl

/-- The input window's block index at a point is (the point's position, 0). -/
theorem idx0_facts : ∀ t : Fin cfg0.N, win0_0.index t 0 = t.val ∧ win0_0.index t 1 = 0 :=
  (by decide +kernel : ∀ t : Fin grid0.N, win0_0.index t 0 = t.val ∧ win0_0.index t 1 = 0)

/-- Where cell `q` of block `t` sits in the reshaped h. -/
def row (t : Fin 28) (q : S12544x128.Idx) : S351232x128.Idx :=
  ((cfg0.win 0).blk ⟨t.val, t.isLt.trans_eq N_0.symm⟩).view.emb q

theorem row_facts (t : Fin 28) (q : S12544x128.Idx) : (row t q 0).val = t.val * 12544 + (q 0).val ∧ (row t q 1).val = (q 1).val := by
  constructor
  · show win0_0.index ⟨t.val, _⟩ 0 * 12544 + 1 * (q 0).val = _
    rw [(idx0_facts ⟨t.val, t.isLt.trans_eq N_0.symm⟩).1]
    show t.val * 12544 + 1 * (q 0).val = t.val * 12544 + (q 0).val
    omega
  · show win0_0.index ⟨t.val, _⟩ 1 * 128 + 1 * (q 1).val = _
    rw [(idx0_facts ⟨t.val, t.isLt.trans_eq N_0.symm⟩).2]
    omega

/-- h, as launched, and its reshape as the region finds it. -/
abbrev hOf (c : Dev nD) : S16384x14x14x14.Idx → EReal := m ((c : Thread nD τ).loc main_arg1)
abbrev hflat (c : Dev nD) : S351232x128.Idx → EReal := V m c main_v0

theorem hflat_eq (c : Dev nD) : hflat m c = shapeCast S351232x128 (hOf m c) shapeCasts_S16384x14x14x14_S351232x128 := V_main_v0 m c

theorem blkN_apply (c : Dev nD) (t : Fin 28) (q : S12544x128.Idx) : blkN m c t.val q = hflat m c (row t q) := by
  rw [blkN_of_lt m c t.val (t.isLt.trans_eq N_0.symm)]
  unfold iblk row
  rw [View.read_apply]
  rfl

/-- The two cores' totals add up to the sum of the squares of all of h. -/
theorem total (c : Dev nD) :
    G m c (ValueIdx.ix3 (0 : Fin 2) (0 : Fin 8) (0 : Fin 128)) + G m c (ValueIdx.ix3 (1 : Fin 2) (0 : Fin 8) (0 : Fin 128))
      = ∑ p : S16384x14x14x14.Idx, hOf m c p * hOf m c p := by
  unfold G
  show (∑ s ∈ Finset.range 14, bsum (blkN m c (14 * 0 + s))) + (∑ s ∈ Finset.range 14, bsum (blkN m c (14 * 1 + s))) = _
  simp only [Nat.mul_zero, Nat.zero_add, Nat.mul_one]
  rw [two_sweeps (fun n => bsum (blkN m c n))]
  have e : ∀ t : Fin 28, bsum (blkN m c t.val)
      = ∑ q : S12544x128.Idx, (fun r : S351232x128.Idx => hflat m c r * hflat m c r) (row t q) := by
    intro t
    unfold bsum
    exact Finset.sum_congr rfl fun q _ => by rw [blkN_apply m c t q]
  rw [Finset.sum_congr rfl (fun t _ => e t)]
  refine (sum_blocks_28 (fun r : S351232x128.Idx => hflat m c r * hflat m c r) row row_facts).trans ?_
  rw [hflat_eq]
  exact sum_reshape _ _

end Cert.KernelIdeal.ValueH

end
-- ==== Proof.KerTailRun.lean ====
import proofs.«158940_j57629871178021_2_alg».proof.Proof.Gen.KernelIdeal.Launch
import proofs.«158940_j57629871178021_2_alg».proof.Proof.Gen.ReferenceIdeal.Read
import Idealize.ShloMosaic.Lib.StableHlo.Run

/-!
The value of the host operations that follow the kernel. After the kernel has written the two
per-core totals, the host adds them, computes the correction term — minus twice the sum, over the
visible joints, of the entry of h at the joint's target cell, plus the number of visible joints —
and divides by the constant. The target cell of a joint is the truncated product of its normalised
coordinates with 14, clipped to 0 … 13; the entry is read by a gather at the four-coordinate index
(batch, joint, row, column).
-/

noncomputable section

namespace Cert.KerTailRun

open Cert.KernelIdeal Cert.KernelIdeal.Facts₀ Idealize.ShloMosaic Idealize.ShloMosaic.TcCoe
open Idealize.SL.Sem Idealize.ShloMosaic.StableHlo

variable {F : FTy → Type} [FloatOps F]

/-- The 84 host operations after the kernel, in program order. -/
def tailFlat : List (HloOp τ sig (Elt F)) :=
  Gen.hostOps1 ++ Gen.hostOps1_1 ++ Gen.hostOps1_2 ++ Gen.hostOps1_3 ++ Gen.hostOps1_4

/-- The integer cell coordinates: the normalised coordinates times 14, truncated. -/
def cellK (t : (⟨S16384x14x2, .f32⟩ : BufTy).Contents (Elt F)) : (⟨S16384x14x2, .i32⟩ : BufTy).Contents (Elt F) :=
  fptosi 32 (mulf t (broadcastInDim S16384x14x2 ![] bcast_S_S16384x14x2 (constant S_ .f32 0x41600000#32)))

/-- A coordinate clipped to 0 … 13: the maximum with 0, then the minimum with 13. -/
def clipK (c : (⟨S16384x14, .i32⟩ : BufTy).Contents (Elt F)) : (⟨S16384x14, .i32⟩ : BufTy).Contents (Elt F) :=
  minsi (broadcastInDim S16384x14 ![] bcast_S_S16384x14 (id (constantI S_ 32 13#32)))
    (maxsi (broadcastInDim S16384x14 ![] bcast_S_S16384x14 (id (constantI S_ 32 0#32))) c)

/-- A gather index made non-negative: 14 is added where it is below 0. -/
def wrapK (c : (⟨S16384x14, .i32⟩ : BufTy).Contents (Elt F)) : (⟨S16384x14, .i32⟩ : BufTy).Contents (Elt F) :=
  select (cmpi .slt c (broadcastInDim S16384x14 ![] bcast_S_S16384x14 (constantI S_ 32 0#32)))
    (addi c (broadcastInDim S16384x14 ![] bcast_S_S16384x14 (constantI S_ 32 14#32))) c

/-- The batch numbers 0 … 16383 as a column, made non-negative. -/
def batchK : (⟨S16384x1, .i32⟩ : BufTy).Contents (Elt F) :=
  select
    (cmpi .slt (broadcastInDim S16384x1 ![0] bcast_S16384_S16384x1_0 (iotaInDim S16384 32 0))
      (broadcastInDim S16384x1 ![] bcast_S_S16384x1 (constantI S_ 32 0#32)))
    (addi (broadcastInDim S16384x1 ![0] bcast_S16384_S16384x1_0 (iotaInDim S16384 32 0))
      (broadcastInDim S16384x1 ![] bcast_S_S16384x1 (constantI S_ 32 16384#32)))
    (broadcastInDim S16384x1 ![0] bcast_S16384_S16384x1_0 (iotaInDim S16384 32 0))

/-- The joint numbers 0 … 13 as a row, made non-negative. -/
def jointK : (⟨S1x14, .i32⟩ : BufTy).Contents (Elt F) :=
  select
    (cmpi .slt (broadcastInDim S1x14 ![1] bcast_S14_S1x14_1 (iotaInDim S14 32 0))
      (broadcastInDim S1x14 ![] bcast_S_S1x14 (constantI S_ 32 0#32)))
    (addi (broadcastInDim S1x14 ![1] bcast_S14_S1x14_1 (iotaInDim S14 32 0))
      (broadcastInDim S1x14 ![] bcast_S_S1x14 (constantI S_ 32 14#32)))
    (broadcastInDim S1x14 ![1] bcast_S14_S1x14_1 (iotaInDim S14 32 0))

/-- The gather indices: for every (batch, joint) the four numbers batch, joint, row, column. -/
def idxK (t : (⟨S16384x14x2, .f32⟩ : BufTy).Contents (Elt F)) : (⟨S16384x14x4, .i32⟩ : BufTy).Contents (Elt F) :=
  concatenate S16384x14x4 2
    [⟨S16384x14x1, broadcastInDim S16384x14x1 ![0, 1] bcast_S16384x14_S16384x14x1_0_1
        (broadcastInDim S16384x14 ![0, 1] bcast_S16384x1_S16384x14_0_1 (batchK (F := F)))⟩,
     ⟨S16384x14x1, broadcastInDim S16384x14x1 ![0, 1] bcast_S16384x14_S16384x14x1_0_1
        (broadcastInDim S16384x14 ![0, 1] bcast_S1x14_S16384x14_0_1 (jointK (F := F)))⟩,
     ⟨S16384x14x1, broadcastInDim S16384x14x1 ![0, 1] bcast_S16384x14_S16384x14x1_0_1
        (wrapK (clipK (shapeCast S16384x14
          (extractStridedSlice S16384x14x1 ![0, 0, 0] (cellK t) slices_S16384x14x2_S16384x14x1_0_0_0)
          shapeCasts_S16384x14x1_S16384x14)))⟩,
     ⟨S16384x14x1, broadcastInDim S16384x14x1 ![0, 1] bcast_S16384x14_S16384x14x1_0_1
        (wrapK (clipK (shapeCast S16384x14
          (extractStridedSlice S16384x14x1 ![0, 0, 1] (cellK t) slices_S16384x14x2_S16384x14x1_0_0_1)
          shapeCasts_S16384x14x1_S16384x14)))⟩]
    concatenates_S16384x14x1_S16384x14x1_S16384x14x1_S16384x14x1_S16384x14x4_d2

/-- The visibility flags as numbers: 1 where the flag equals 1, else 0. -/
def visK (v : (⟨S16384x14x1, .i32⟩ : BufTy).Contents (Elt F)) : (⟨S16384x14, .f32⟩ : BufTy).Contents (Elt F) :=
  uitofp .f32 (cmpi .eq (shapeCast S16384x14 v shapeCasts_S16384x14x1_S16384x14)
    (broadcastInDim S16384x14 ![] bcast_S_S16384x14 (constantI S_ 32 1#32)))

/-- The one-pass reading of a list of host operations at a reference, in a hypothesis. -/
local macro "after_results_simp_at " h:ident : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at $h:ident))

set_option maxRecDepth 8192 in
set_option maxHeartbeats 8000000 in
/-- What the result buffer holds after the host operations, from the contents W the buffers have when
    they start: the composed term of the kernel's result and the three arguments. -/
theorem tail_result (W : Valuation τ sig (Elt F)) :
    StableHlo.after (tailFlat (F := F)) W (Proc.devRef .tc main_v56)
      = Host.divf
          (addf
            (Host.reduceAdd
              (shapeCast S2
                (extractStridedSlice S2x1x1 ![0, 0, 0]
                  (W (Proc.devRef .tc main_v1) : (⟨S2x8x128, .f32⟩ : BufTy).Contents (Elt F))
                  slices_S2x8x128_S2x1x1_0_0_0)
                shapeCasts_S2x1x1_S2)
              (constant S_ .f32 0x00000000#32) reducesTo_S2_S_d0 h_S_)
            (addf
              (mulf (constant S_ .f32 0xC0000000#32)
                (Host.reduceAdd
                  (mulf (visK (W (Proc.devRef .tc main_arg3) : (⟨S16384x14x1, .i32⟩ : BufTy).Contents (Elt F)))
                    (Host.gather gather_S16384x14x14x14_S16384x14x4_S16384x14_n_0123_n_n_0123_2_1111
                      (W (Proc.devRef .tc main_arg1) : (⟨S16384x14x14x14, .f32⟩ : BufTy).Contents (Elt F))
                      (idxK (W (Proc.devRef .tc main_arg2) : (⟨S16384x14x2, .f32⟩ : BufTy).Contents (Elt F)))))
                  (constant S_ .f32 0x00000000#32) reducesTo_S16384x14_S_d0_1 h_S_))
              (Host.reduceAdd
                (visK (W (Proc.devRef .tc main_arg3) : (⟨S16384x14x1, .i32⟩ : BufTy).Contents (Elt F)))
                (constant S_ .f32 0x00000000#32) reducesTo_S16384x14_S_d0_1 h_S_)))
          (constant S_ .f32 0x4BAB8000#32) := by
  unfold tailFlat
  simp only [Gen.hostOps1, Gen.hostOps1_1, Gen.hostOps1_2, Gen.hostOps1_3, Gen.hostOps1_4,
    List.cons_append, List.nil_append, List.append_assoc]
  after_results_simp
  -- the four operands of the concatenate, at their literal references
  simp only [Matrix.cons_val]
  -- they are read from ONE valuation, the contents after the operations before the concatenate
  generalize hV : HloOp.result (unary main_v41 main_v47 _ _ _) _ = V
  have e44 := congrFun hV (Proc.devRef .tc main_v44)
  have e45 := congrFun hV (Proc.devRef .tc main_v45)
  have e46 := congrFun hV (Proc.devRef .tc main_v46)
  have e47 := congrFun hV (Proc.devRef .tc main_v47)
  after_results_simp_at e44
  after_results_simp_at e45
  after_results_simp_at e46
  after_results_simp_at e47
  rw [← e44, ← e45, ← e46, ← e47]
  rfl

/-- The reference computes the gather indices by the same operations in the same order. -/
theorem idxK_eq (t : (⟨S16384x14x2, .f32⟩ : BufTy).Contents (Elt F)) :
    idxK (F := F) t = Cert.ReferenceIdeal.Read.val_main_v44 (F := F) t := rfl

/-- The reference computes the visibility numbers by the same operations in the same order. -/
theorem visK_eq (v : (⟨S16384x14x1, .i32⟩ : BufTy).Contents (Elt F)) :
    visK (F := F) v = Cert.ReferenceIdeal.Read.val_main_v12 (F := F) v := rfl

end Cert.KerTailRun

end
-- ==== Proof.KernelResult.lean ====
/-
  From the region's result to the program's result. After the region the host operations slice the two cores' totals
  out of the (2, 8, 128) array and add them, compute the gathered correction  -2 · Σ vis · h[b, j, x, y] + Σ vis  from
  the argument arrays, and divide by n. Read at the exact instance: the program's result is
  (Σ h² + (-2 · Σ vis · h[…] + Σ vis)) / n.
-/
import proofs.«158940_j57629871178021_2_alg».proof.Proof.KernelValue
import proofs.«158940_j57629871178021_2_alg».proof.Proof.KerTailRun

set_option maxRecDepth 16384

noncomputable section

namespace Cert.KernelIdeal.ResultH

open Cert.KernelIdeal Cert.KernelIdeal.Gen Cert.KernelIdeal.FrameH Cert.KernelIdeal.ValueH Cert.KerTailRun Cert.KerTail
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The contents the host operations after the region start from: the region's arrays as it leaves them, every other
    buffer as the region found it. -/
abbrev W (c : Dev nD) : Valuation τ sig (Elt Ideal) :=
  Pipeline.withArrays spec0 c (V0 m c) fun w => (dats m 0 c).arrAt w cfg0.N

theorem W_v1 (c : Dev nD) : (W m c (Proc.devRef .tc main_v1) : S2x8x128.Idx → EReal) = G m c :=
  (Pipeline.withArrays_arr spec0 launch0.win.arr_inj c _ _ 1).trans (final m c)
theorem W_arg1 (c : Dev nD) : W m c (Proc.devRef .tc main_arg1) = m ((c : Thread nD τ).loc main_arg1) :=
  (Pipeline.withArrays_of_ne spec0 c _ _ main_arg1 (by decide)).trans (V_main_arg1 m c)
theorem W_arg2 (c : Dev nD) : W m c (Proc.devRef .tc main_arg2) = m ((c : Thread nD τ).loc main_arg2) :=
  (Pipeline.withArrays_of_ne spec0 c _ _ main_arg2 (by decide)).trans (V_main_arg2 m c)
theorem W_arg3 (c : Dev nD) : W m c (Proc.devRef .tc main_arg3) = m ((c : Thread nD τ).loc main_arg3) :=
  (Pipeline.withArrays_of_ne spec0 c _ _ main_arg3 (by decide)).trans (V_main_arg3 m c)

theorem tail_flat : (tailOps (F := Ideal)).flatten = tailFlat (F := Ideal) := by
  simp only [tailOps, tailFlat, List.flatten_cons, List.flatten_nil, List.append_nil, List.append_assoc]

/-- The program's result, at the exact instance. -/
theorem kernel_value (c : Dev nD) (i : S_.Idx) :
    Pipeline.afterTail₀ cfgs (dats m) 0 (V0 m) tailOps c main_v56 i
      = FloatOps.hostDivf (F := Ideal)
          ((∑ p : S16384x14x14x14.Idx, hOf m c p * hOf m c p)
            + ((FloatOps.ofBits (F := Ideal) .f32 0xC0000000#32)
                * (∑ j : S16384x14.Idx, visK (F := Ideal) (m ((c : Thread nD τ).loc main_arg3)) j
                    * hOf m c (gather_S16384x14x14x14_S16384x14x4_S16384x14_n_0123_n_n_0123_2_1111.operandIdx j (idxK (F := Ideal) (m ((c : Thread nD τ).loc main_arg2)))))
              + ∑ j : S16384x14.Idx, visK (F := Ideal) (m ((c : Thread nD τ).loc main_arg3)) j))
          (FloatOps.ofBits (F := Ideal) .f32 0x4BAB8000#32) := by
  unfold Pipeline.afterTail₀
  rw [tail_flat, tail_result]
  rw [show Pipeline.withArrays (cfgs 0).spec c (V0 m c) (fun w => (dats m 0 c).arrAt w (cfgs 0).N) (Proc.devRef .tc main_v1) = G m c from W_v1 m c,
    show Pipeline.withArrays (cfgs 0).spec c (V0 m c) (fun w => (dats m 0 c).arrAt w (cfgs 0).N) (Proc.devRef .tc main_arg1) = hOf m c from W_arg1 m c,
    show Pipeline.withArrays (cfgs 0).spec c (V0 m c) (fun w => (dats m 0 c).arrAt w (cfgs 0).N) (Proc.devRef .tc main_arg2) = m ((c : Thread nD τ).loc main_arg2) from W_arg2 m c,
    show Pipeline.withArrays (cfgs 0).spec c (V0 m c) (fun w => (dats m 0 c).arrAt w (cfgs 0).N) (Proc.devRef .tc main_arg3) = m ((c : Thread nD τ).loc main_arg3) from W_arg3 m c]
  show FloatOps.hostDivf (F := Ideal) (FloatOps.addf (F := Ideal) (Host.reduceAdd (F := Ideal) _ _ _ _ i)
    (FloatOps.addf (F := Ideal) (FloatOps.mulf (F := Ideal) _ (Host.reduceAdd (F := Ideal) _ _ _ _ i)) (Host.reduceAdd (F := Ideal) _ _ _ _ i))) _ = _
  rw [core_total, sum_all, sum_all, total]
  rfl

/-- The run of the idealized kernel, read: its result buffer ends at what the host operations after the region compute
    from the region's result, and its four arguments end unchanged. -/
theorem kernel_run : θ_run defs (onTc (τ := τ) (main (F := Ideal))) ⟨m, fun _ => 0, ρ⟩ (fun r => ∀ c : Dev nD,
      r.2.mem ((c.tc : Thread nD τ).loc main_v56) = Pipeline.afterTail₀ cfgs (dats m) 0 (V0 m) tailOps c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v56 (Pipeline.mem_restRefs_of main_v56 (by decide) (by decide)),
     ((h c).2 main_arg0 (Pipeline.mem_restRefs_of main_arg0 (by decide) (by decide))).trans ((tail_arg m c main_arg0 (by decide) (by decide)).trans (V_main_arg0 m c)),
     ((h c).2 main_arg1 (Pipeline.mem_restRefs_of main_arg1 (by decide) (by decide))).trans ((tail_arg m c main_arg1 (by decide) (by decide)).trans (V_main_arg1 m c)),
     ((h c).2 main_arg2 (Pipeline.mem_restRefs_of main_arg2 (by decide) (by decide))).trans ((tail_arg m c main_arg2 (by decide) (by decide)).trans (V_main_arg2 m c)),
     ((h c).2 main_arg3 (Pipeline.mem_restRefs_of main_arg3 (by decide) (by decide))).trans ((tail_arg m c main_arg3 (by decide) (by decide)).trans (V_main_arg3 m c))⟩) (run_main m ρ)

end Cert.KernelIdeal.ResultH

end
-- ==== Proof.RefIndex.lean ====
/- Facts about the reference's index tensor: where each update lands in the scattered array, that the kernel's
   gather reads that very cell, and that the visibility weights are 0 or 1. Hand-written. -/
import proofs.«158940_j57629871178021_2_alg».proof.Proof.Gen.ReferenceIdeal.Read
import proofs.«158940_j57629871178021_2_alg».proof.Proof.Gen.KernelIdeal
import Idealize.ShloMosaic.PureOps.Ideal
import Idealize.ShloMosaic.PureOps.Ideal.Laws
import Idealize.ShloMosaic.Lib.ValueIdx
import Idealize.ShloMosaic.Lib.Pipeline.Value

noncomputable section

namespace Cert.RefIndex

open Idealize.ShloMosaic Idealize.SL.Sem Cert.ReferenceIdeal Cert.ReferenceIdeal.Gen Cert.ReferenceIdeal.Read

/-- The kernel's gather record and the reference's scatter record (over the same literal shapes). -/
abbrev gd : GatherDims S16384x14x14x14 S16384x14x4 S16384x14 :=
  Cert.KernelIdeal.gather_S16384x14x14x14_S16384x14x4_S16384x14_n_0123_n_n_0123_2_1111
abbrev sd : ScatterDims S16384x14x14x14 S16384x14x4 S16384x14 :=
  Cert.ReferenceIdeal.scatter_S16384x14x14x14_S16384x14x4_S16384x14_n_0123_0123_2

abbrev TT : Type := (⟨S16384x14x2, .f32⟩ : BufTy).Contents (Elt Ideal)
abbrev VT : Type := (⟨S16384x14x1, .i32⟩ : BufTy).Contents (Elt Ideal)

/-- The reference's index tensor and its visibility weights. -/
abbrev IDX (t : TT) : IVec S16384x14x4 32 := val_main_v44 (F := Ideal) t
abbrev VIS (v : VT) : S16384x14.Idx → EReal := val_main_v12 (F := Ideal) v

/-! ## Signed 32-bit words -/

/-- A natural below 2^31 reads back, signed, as itself. -/
theorem toInt_ofNat_small (n : Nat) (h : n < 2147483648) : (BitVec.ofNat 32 n).toInt = n := by
  rw [BitVec.toInt_eq_toNat_cond, BitVec.toNat_ofNat]
  omega

/-- min(13, max(0, x)), read signed, lies in [0, 13]. -/
theorem clip_bounds (x : BitVec 32) :
    0 ≤ (IntOp.minsi 13#32 (IntOp.maxsi 0#32 x)).toInt ∧ (IntOp.minsi 13#32 (IntOp.maxsi 0#32 x)).toInt ≤ 13 := by
  unfold IntOp.minsi IntOp.maxsi
  simp only [BitVec.slt]
  have h0 : (0#32).toInt = 0 := by decide
  have h13 : (13#32).toInt = 13 := by decide
  split <;> split <;> simp_all <;> omega

/-- The wrap "x < 0 ? x + n : x" of a word that is nonnegative read signed is the word. -/
theorem wrap_nonneg (c n : BitVec 32) (h : 0 ≤ c.toInt) :
    Scalar.select (IntOp.cmpi .slt c 0#32) (IntOp.addi c n) c = c := by
  unfold Scalar.select IntOp.cmpi
  have h0 : (0#32).toInt = 0 := by decide
  have hs : c.slt 0#32 = false := by simp [BitVec.slt, h0]; omega
  simp [hs]

/-! ## The index tensor at an index -/

/-- The index of the index tensor holding component `c` of update `j`'s cell. -/
def sIx (j : S16384x14.Idx) (c : Fin 4) : S16384x14x4.Idx := fun b => match b with
  | ⟨0, _⟩ => ⟨(j 0).val, (j 0).isLt⟩
  | ⟨1, _⟩ => ⟨(j 1).val, (j 1).isLt⟩
  | ⟨2, _⟩ => ⟨c.val, c.isLt⟩

/-- The same position in a piece of the concatenation. -/
def pIx (j : S16384x14.Idx) : S16384x14x1.Idx := fun b => match b with
  | ⟨0, _⟩ => ⟨(j 0).val, (j 0).isLt⟩
  | ⟨1, _⟩ => ⟨(j 1).val, (j 1).isLt⟩
  | ⟨2, _⟩ => ⟨0, Nat.one_pos⟩

/-- The four pieces of the concatenation. -/
abbrev pieces (t : TT) : List ((s : Shape) × (s.Idx → BitVec 32)) :=
  [⟨S16384x14x1, val_main_v40 (F := Ideal)⟩, ⟨S16384x14x1, val_main_v41 (F := Ideal)⟩,
    ⟨S16384x14x1, val_main_v42 (F := Ideal) t⟩, ⟨S16384x14x1, val_main_v43 (F := Ideal) t⟩]

/-- The concatenation at component `k` is piece `k` (each piece has extent one on the joined axis). -/
theorem IDX_piece (t : TT) (j : S16384x14.Idx) (k : Nat) (hk : k < 4) (x₁ : S16384x14x1.Idx → BitVec 32)
    (hx : (pieces t)[k]'hk = ⟨S16384x14x1, x₁⟩)
    (hpre : ((((pieces t).take k).map (·.1)).map fun s =>
      if h : s.rank = S16384x14x4.rank then s.size ((2 : Fin S16384x14x4.rank).cast h.symm) else 0).sum = k) :
    IDX t (sIx j ⟨k, hk⟩) = x₁ (pIx j) := by
  refine concatenate_apply_piece (2 : Fin S16384x14x4.rank) (pieces t) _ (sIx j ⟨k, hk⟩) k hk S16384x14x1 x₁ hx rfl k hpre
    (pIx j) ?_ ?_
  · intro b hb
    match b with
    | ⟨0, _⟩ => rfl
    | ⟨1, _⟩ => rfl
    | ⟨2, _⟩ => exact absurd rfl hb
  · show k + 0 = k
    omega

/-- Component 0 of the index tensor is the update's own first coordinate. -/
theorem comp0 (t : TT) (j : S16384x14.Idx) : IDX t (sIx j 0) = BitVec.ofNat 32 (j 0).val := by
  refine (IDX_piece t j 0 (by decide) _ rfl rfl).trans ?_
  rw [val_main_v40_apply, val_main_v38_apply, val_main_v22_apply, val_main_v19_apply,
    val_main_v14_apply, val_main_v13_apply, val_main_v18_apply, val_main_c_5_apply, val_main_v21_apply,
    val_main_v14_apply, val_main_v13_apply]
  rw [wrap_nonneg _ _ (by
    rw [toInt_ofNat_small _ (by have := (j 0).isLt; show (j 0).val < 2147483648; have : (j 0).val < 16384 := this; omega)]
    exact Int.natCast_nonneg _)]
  rfl

/-- Component 1 is the update's own second coordinate. -/
theorem comp1 (t : TT) (j : S16384x14.Idx) : IDX t (sIx j 1) = BitVec.ofNat 32 (j 1).val := by
  refine (IDX_piece t j 1 (by decide) _ rfl rfl).trans ?_
  rw [val_main_v41_apply, val_main_v39_apply, val_main_v27_apply, val_main_v24_apply,
    val_main_v16_apply, val_main_v15_apply, val_main_v23_apply, val_main_c_7_apply, val_main_v26_apply,
    val_main_v16_apply, val_main_v15_apply]
  rw [wrap_nonneg _ _ (by
    rw [toInt_ofNat_small _ (by have := (j 1).isLt; show (j 1).val < 2147483648; have : (j 1).val < 14 := this; omega)]
    exact Int.natCast_nonneg _)]
  rfl

/-- Component 2 is a clipped word. -/
theorem comp2 (t : TT) (j : S16384x14.Idx) :
    ∃ x : BitVec 32, IDX t (sIx j 2) = IntOp.minsi 13#32 (IntOp.maxsi 0#32 x) := by
  refine ⟨val_main_v4 (F := Ideal) t (idx_main_v42 (pIx j)), ?_⟩
  refine (IDX_piece t j 2 (by decide) _ rfl rfl).trans ?_
  rw [val_main_v42_apply, val_main_v32_apply, val_main_v29_apply, val_main_v28_apply,
    val_main_c_9_apply, val_main_v5_apply, val_main_call0_v4_apply, val_main_call0_v3_apply, val_main_c_0_apply,
    val_main_call0_v2_apply, val_main_call0_v1_apply, val_main_call0_v0_apply, val_main_c_apply]
  exact wrap_nonneg _ _ (clip_bounds _).1

/-- Component 3 is a clipped word. -/
theorem comp3 (t : TT) (j : S16384x14.Idx) :
    ∃ x : BitVec 32, IDX t (sIx j 3) = IntOp.minsi 13#32 (IntOp.maxsi 0#32 x) := by
  refine ⟨val_main_v7 (F := Ideal) t (idx_main_v43 (pIx j)), ?_⟩
  refine (IDX_piece t j 3 (by decide) _ rfl rfl).trans ?_
  rw [val_main_v43_apply, val_main_v37_apply, val_main_v34_apply, val_main_v33_apply,
    val_main_c_11_apply, val_main_v8_apply, val_main_call1_v4_apply, val_main_call1_v3_apply, val_main_c_2_apply,
    val_main_call1_v2_apply, val_main_call1_v1_apply, val_main_call1_v0_apply, val_main_c_1_apply]
  exact wrap_nonneg _ _ (clip_bounds _).1

/-- Every component, read signed, is a coordinate of the scattered array. -/
theorem comp_range (t : TT) (j : S16384x14.Idx) (a : Fin 4) :
    0 ≤ (IDX t (sIx j a)).toInt ∧ (IDX t (sIx j a)).toInt < (S16384x14x14x14.size a : Nat) := by
  match a with
  | ⟨0, _⟩ =>
    have h : (j 0).val < 16384 := (j 0).isLt
    show 0 ≤ (IDX t (sIx j 0)).toInt ∧ (IDX t (sIx j 0)).toInt < ((16384 : Nat) : Int)
    rw [comp0, toInt_ofNat_small _ (by omega)]
    omega
  | ⟨1, _⟩ =>
    have h : (j 1).val < 14 := (j 1).isLt
    show 0 ≤ (IDX t (sIx j 1)).toInt ∧ (IDX t (sIx j 1)).toInt < ((14 : Nat) : Int)
    rw [comp1, toInt_ofNat_small _ (by omega)]
    omega
  | ⟨2, _⟩ =>
    obtain ⟨x, hx⟩ := comp2 t j
    show 0 ≤ (IDX t (sIx j 2)).toInt ∧ (IDX t (sIx j 2)).toInt < ((14 : Nat) : Int)
    rw [hx]
    have := clip_bounds x
    omega
  | ⟨3, _⟩ =>
    obtain ⟨x, hx⟩ := comp3 t j
    show 0 ≤ (IDX t (sIx j 3)).toInt ∧ (IDX t (sIx j 3)).toInt < ((14 : Nat) : Int)
    rw [hx]
    have := clip_bounds x
    omega

/-! ## The gather's operand index -/

/-- (a) The cell of the heat map that update `j` addresses. -/
def tgt (t : TT) (j : S16384x14.Idx) : S16384x14x14x14.Idx := gd.operandIdx j (IDX t)

theorem gather_eq {α : Type} (h : S16384x14x14x14.Idx → α) (t : TT) (j : S16384x14.Idx) :
    Host.gather gd h (IDX t) j = h (tgt t j) := rfl

theorem gd_siIdx (j : S16384x14.Idx) (c : Fin gd.startIndexMap.length) :
    gd.siIdx j c = sIx j ⟨c.val, c.isLt⟩ := by
  funext b
  refine Fin.ext ?_
  match b with
  | ⟨0, _⟩ => rfl
  | ⟨1, _⟩ => rfl
  | ⟨2, _⟩ => rfl

theorem gd_start (j : S16384x14.Idx) (idx : IVec S16384x14x4 32) (a : Fin 4) :
    gd.start j idx a = min (idx (sIx j a)).toInt.toNat (S16384x14x14x14.size a - 1) := by
  have ha : a ∈ gd.startIndexMap := by revert a; decide
  unfold GatherDims.start
  rw [dif_pos ha, gd_siIdx]
  match a with
  | ⟨0, _⟩ => rfl
  | ⟨1, _⟩ => rfl
  | ⟨2, _⟩ => rfl
  | ⟨3, _⟩ => rfl

theorem tgt_val (t : TT) (j : S16384x14.Idx) (a : Fin 4) :
    (tgt t j a).val = min (IDX t (sIx j a)).toInt.toNat (S16384x14x14x14.size a - 1) := by
  show gd.start j (IDX t) a + gd.batchCoord j a + gd.offCoord j a = _
  have hc : a ∈ gd.collapsedSliceDims := by revert a; decide
  rw [GatherDims.batchCoord_eq_zero _ _ _ List.not_mem_nil,
    GatherDims.offCoord_eq_zero _ _ _ (fun h => ((GatherDims.mem_sKept _ _).mp h).1 hc), gd_start]
  rfl

/-- The gather's clamp is the identity on the index tensor's components. -/
theorem tgt_val' (t : TT) (j : S16384x14.Idx) (a : Fin 4) :
    ((tgt t j a).val : Int) = (IDX t (sIx j a)).toInt := by
  rw [tgt_val]
  have h := comp_range t j a
  omega

/-- (b) The cell's first two coordinates are the update's own. -/
theorem tgt_coords (t : TT) (j : S16384x14.Idx) :
    (tgt t j 0).val = (j 0).val ∧ (tgt t j 1).val = (j 1).val := by
  have h0 : (j 0).val < 16384 := (j 0).isLt
  have h1 : (j 1).val < 14 := (j 1).isLt
  have e0 := tgt_val' t j 0
  have e1 := tgt_val' t j 1
  rw [comp0, toInt_ofNat_small _ (by omega)] at e0
  rw [comp1, toInt_ofNat_small _ (by omega)] at e1
  exact ⟨by omega, by omega⟩

/-- (c) Distinct updates address distinct cells. -/
theorem tgt_injective (t : TT) : Function.Injective (tgt t) := by
  intro j j' h
  have c := tgt_coords t j
  have c' := tgt_coords t j'
  rw [h] at c
  funext b
  refine Fin.ext ?_
  match b with
  | ⟨0, _⟩ => exact c.1.symm.trans c'.1
  | ⟨1, _⟩ => exact c.2.symm.trans c'.2

/-! ## The scatter's result index -/

theorem sd_siIdx (j : S16384x14.Idx) (c : Fin sd.scatterDimsToOperandDims.length) :
    sd.siIdx j c = sIx j ⟨c.val, c.isLt⟩ := by
  funext b
  refine Fin.ext ?_
  match b with
  | ⟨0, _⟩ => rfl
  | ⟨1, _⟩ => rfl
  | ⟨2, _⟩ => rfl

theorem sd_start (j : S16384x14.Idx) (idx : IVec S16384x14x4 32) (a : Fin 4) :
    sd.start j idx a = (idx (sIx j a)).toInt := by
  have ha : a ∈ sd.scatterDimsToOperandDims := by revert a; decide
  unfold ScatterDims.start
  rw [dif_pos ha, sd_siIdx]
  match a with
  | ⟨0, _⟩ => rfl
  | ⟨1, _⟩ => rfl
  | ⟨2, _⟩ => rfl
  | ⟨3, _⟩ => rfl

theorem sd_window (j : S16384x14.Idx) (a : Fin 4) : sd.window j a = 0 := by
  have ha : a ∉ sd.sKept := by revert a; decide
  unfold ScatterDims.window
  rw [dif_neg ha]

/-- (d) The scatter drops no update, and update `j` lands on the cell the gather reads. -/
theorem scatter_hits (t : TT) (j : S16384x14.Idx) : sd.resultIdx? j (IDX t) = some (tgt t j) := by
  have h : ∀ a, 0 ≤ sd.start j (IDX t) a + sd.window j a ∧
      sd.start j (IDX t) a + sd.window j a < S16384x14x14x14.size a := by
    intro a
    rw [sd_start, sd_window]
    have := comp_range t j a
    omega
  unfold ScatterDims.resultIdx?
  rw [dif_pos h]
  refine congrArg some ?_
  funext a
  refine Fin.ext ?_
  show (sd.start j (IDX t) a + sd.window j a).toNat = (tgt t j a).val
  have e := tgt_val' t j a
  rw [sd_start, sd_window]
  omega

/-! ## The visibility weights -/

/-- (e) A visibility weight is 0 or 1. -/
theorem vis_01 (v : VT) (j : S16384x14.Idx) : VIS v j = 0 ∨ VIS v j = 1 := by
  show FloatOps.uitofp (F := Ideal) .f32 (val_main_v11 (F := Ideal) v j) = 0 ∨
    FloatOps.uitofp (F := Ideal) .f32 (val_main_v11 (F := Ideal) v j) = 1
  generalize val_main_v11 (F := Ideal) v j = b
  rcases BitVec.eq_zero_or_eq_one b with h | h <;> subst h
  · left; show (((0#1).toNat : ℝ) : EReal) = 0; simp
  · right; show (((1#1).toNat : ℝ) : EReal) = 1; simp

end Cert.RefIndex

end
-- ==== Proof.LibScatterSet.lean ====
/-
  A scatter whose body returns the update (`x.at[idx].set(upd)`), read pointwise.

  `Host.scatter d (fun _ b => b) x idx upd` is a left fold, over the update indices in row-major
  order, of the step "replace the element at the result index of this update, when there is one".
  Read at ONE operand index `i`, such a fold is: the update of the LAST update index that lands on
  `i`, or the operand's own element when none does. The two theorems at the end state this under
  the hypothesis that at most one update index lands on `i` (then "the last" is "the"), with no
  evaluation of the fold: the proof is an induction over an arbitrary list of update positions.
-/
import Idealize.ShloMosaic.PureOps.ShapeOps

namespace Idealize.ShloMosaic

section FoldSet
variable {ι κ α : Type}

/-- A left fold of "set" steps over a list `l` of update positions, read at one index `i`.
    Position `n` lands on `p n` (or nowhere, `none`) and carries the value `v n`; a step at `n`
    replaces the element at `p n` by `v n` and leaves every other element alone (`hsome`), or
    leaves everything alone when `p n = none` (`hnone`). Then either no position of `l` lands on
    `i` and the fold's element at `i` is the starting one, or the element at `i` is the value of
    some position of `l` that lands on `i` (the last such one, which the statement does not need
    to say). Proof: induction on `l` from the right, `l ++ [a]` folding to one step after `l`'s
    fold. -/
theorem foldl_set_cases [DecidableEq ι] (p : κ → Option ι) (v : κ → α) (step : (ι → α) → κ → ι → α)
    (hsome : ∀ (r : ι → α) (n : κ) (i : ι), p n = some i → ∀ i', step r n i' = if i' = i then v n else r i')
    (hnone : ∀ (r : ι → α) (n : κ), p n = none → step r n = r)
    (x : ι → α) (i : ι) (l : List κ) :
    ((∀ n ∈ l, p n ≠ some i) ∧ l.foldl step x i = x i) ∨
      ∃ n ∈ l, p n = some i ∧ l.foldl step x i = v n := by
  induction l using List.reverseRecOn with
  | nil => exact Or.inl ⟨by simp, rfl⟩
  | append_singleton l a ih =>
    rw [List.foldl_append, List.foldl_cons, List.foldl_nil]
    by_cases ha : p a = some i
    · -- the last step lands on `i`: it writes `v a` there
      right
      refine ⟨a, by simp, ha, ?_⟩
      rw [hsome _ _ _ ha, if_pos rfl]
    · -- the last step lands elsewhere or nowhere: the element at `i` is the one before it
      have hstep : step (l.foldl step x) a i = l.foldl step x i := by
        cases hpa : p a with
        | none => rw [hnone _ _ hpa]
        | some i0 =>
          rw [hsome _ _ _ hpa, if_neg]
          intro h
          exact ha (by rw [hpa, h])
      rw [hstep]
      rcases ih with ⟨hm, hx⟩ | ⟨n, hn, hpn, hx⟩
      · left
        refine ⟨?_, hx⟩
        intro n hn
        rcases List.mem_append.1 hn with h | h
        · exact hm n h
        · rw [List.mem_singleton.1 h]; exact ha
      · right
        exact ⟨n, List.mem_append_left _ hn, hpn, hx⟩

end FoldSet

section ScatterSet
variable {s si u : Shape} {α : Type} {w : Nat}

/-- One step of the fold `Host.scatter d (fun _ b => b) x idx upd` is: the update index of
    row-major position `n` replaces the element at its result index by its update, when it has
    one. -/
def scatterSetStep (d : ScatterDims s si u) (idx : IVec si w) (upd : u.Idx → α) (r : s.Idx → α)
    (n : Fin u.numel) : s.Idx → α :=
  match d.resultIdx? (u.rowMajor.symm n) idx with
  | some i => fun i' => if i' = i then upd (u.rowMajor.symm n) else r i'
  | none => r

/-- A scatter whose body returns the update is the left fold of `scatterSetStep` (by unfolding). -/
theorem scatter_set_eq_foldl (d : ScatterDims s si u) (x : s.Idx → α) (idx : IVec si w) (upd : u.Idx → α) :
    Host.scatter d (fun _ b => b) x idx upd = (List.finRange u.numel).foldl (scatterSetStep d idx upd) x :=
  rfl

/-- A scatter whose body returns the update, read at one operand index `i`: either no update
    index lands on `i` and the element is the operand's, or it is the update of some update index
    that lands on `i`. (`foldl_set_cases` over the row-major list of update positions; every
    update index `j` is the one of its own row-major position, `u.rowMajor` being an
    equivalence.) -/
theorem scatter_set_cases (d : ScatterDims s si u) (x : s.Idx → α) (idx : IVec si w) (upd : u.Idx → α)
    (i : s.Idx) :
    ((∀ j : u.Idx, d.resultIdx? j idx ≠ some i) ∧ Host.scatter d (fun _ b => b) x idx upd i = x i) ∨
      ∃ j : u.Idx, d.resultIdx? j idx = some i ∧ Host.scatter d (fun _ b => b) x idx upd i = upd j := by
  rw [scatter_set_eq_foldl]
  have hsome : ∀ (r : s.Idx → α) (n : Fin u.numel) (i0 : s.Idx),
      d.resultIdx? (u.rowMajor.symm n) idx = some i0 →
        ∀ i', scatterSetStep d idx upd r n i' = if i' = i0 then upd (u.rowMajor.symm n) else r i' := by
    intro r n i0 h i'
    unfold scatterSetStep
    rw [h]
  have hnone : ∀ (r : s.Idx → α) (n : Fin u.numel),
      d.resultIdx? (u.rowMajor.symm n) idx = none → scatterSetStep d idx upd r n = r := by
    intro r n h
    unfold scatterSetStep
    rw [h]
  rcases foldl_set_cases (fun n : Fin u.numel => d.resultIdx? (u.rowMajor.symm n) idx)
      (fun n => upd (u.rowMajor.symm n)) (scatterSetStep d idx upd) hsome hnone x i
      (List.finRange u.numel) with ⟨hm, hx⟩ | ⟨n, _, hpn, hx⟩
  · left
    refine ⟨?_, hx⟩
    intro j
    have := hm (u.rowMajor j) (List.mem_finRange _)
    simpa using this
  · right
    exact ⟨u.rowMajor.symm n, hpn, hx⟩

/-- A scatter whose body returns the update (`x.at[idx].set(upd)`), at an operand index `i` that
    update index `j` lands on, when no other update index lands where `j` does: the element is
    `j`'s update. -/
theorem scatter_set_apply_of_hit (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i : s.Idx) (hj : d.resultIdx? j idx = some i) :
    Host.scatter d (fun _ b => b) x idx upd i = upd j := by
  rcases scatter_set_cases d x idx upd i with ⟨hm, _⟩ | ⟨j', hj', hx⟩
  · exact absurd hj (hm j)
  · rw [hx, hinj j j' i hj hj']

/-- A scatter whose body returns the update (`x.at[idx].set(upd)`), at an operand index `i` that
    no update index lands on: the element is the operand's. -/
theorem scatter_set_apply_of_miss (d : ScatterDims s si u) (x : s.Idx → α) (idx : IVec si w) (upd : u.Idx → α)
    (i : s.Idx) (hi : ∀ j : u.Idx, d.resultIdx? j idx ≠ some i) :
    Host.scatter d (fun _ b => b) x idx upd i = x i := by
  rcases scatter_set_cases d x idx upd i with ⟨_, hx⟩ | ⟨j', hj', _⟩
  · exact hx
  · exact absurd hj' (hi j')

end ScatterSet

end Idealize.ShloMosaic
-- ==== Proof.LibSquareSplit.lean ====
/-
  The square of a difference against a one-hot target, summed: an algebraic law in the extended
  reals.

  `tt` is a table over a finite index type `P` that holds `vis j` at the position `g j` (`g`
  injective) and `0` everywhere else, each `vis j` being `0` or `1`; `h` is a table of FINITE
  extended reals. Then

      ∑_p (h p − tt p)²  =  ∑_p (h p)²  +  ( −2 · ∑_j vis j · h (g j)  +  ∑_j vis j ).

  Every term is a real number (`h` by hypothesis, `vis` and `tt` because they take the values
  `0`, `1`), so the identity is one of real numbers under the coercion `ℝ → EReal`, which commutes
  with `+`, `−`, `·` and finite sums. In `ℝ`: expand the square,
  `∑ (h − tt)² = ∑ h² − 2 ∑ h·tt + ∑ tt²`; a sum over `P` of a function that vanishes off the
  image of `g` is the sum over `J` of its values along `g`, so `∑_p h p · tt p = ∑_j vis j · h (g j)`
  and `∑_p (tt p)² = ∑_j (vis j)² = ∑_j vis j`, the last because `0² = 0` and `1² = 1`.
-/
import Idealize.ShloMosaic.PureOps.Ideal

namespace Idealize.ShloMosaic

/-- The coercion `ℝ → EReal` commutes with a finite sum (induction on the finite set, the step
    being `EReal.coe_add`). -/
theorem ereal_coe_finset_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum over `P` of a real function that vanishes off the image of an injective `g : J → P` is
    the sum over `J` of its values along `g`. -/
theorem sum_eq_sum_comp_of_injective {P J : Type} [Fintype P] [Fintype J] [DecidableEq P] (g : J → P)
    (hg : Function.Injective g) (f : P → ℝ) (hf : ∀ p, (∀ j, g j ≠ p) → f p = 0) :
    ∑ p, f p = ∑ j, f (g j) := by
  rw [← Finset.sum_image (s := Finset.univ) (g := g) (f := f) hg.injOn]
  symm
  apply Finset.sum_subset (Finset.subset_univ _)
  intro p _ hp
  apply hf
  intro j hj
  exact hp (Finset.mem_image.2 ⟨j, Finset.mem_univ _, hj⟩)

/-- The real-number form of `sum_sq_sub_onehot`: `tr` holds `vr j` at `g j` and `0` off the image
    of the injective `g`, each `vr j` is `0` or `1`. -/
theorem real_sum_sq_sub_onehot {P J : Type} [Fintype P] [Fintype J] [DecidableEq P] (g : J → P)
    (hg : Function.Injective g) (hr : P → ℝ) (vr : J → ℝ) (hvr : ∀ j, vr j = 0 ∨ vr j = 1) (tr : P → ℝ)
    (hhit : ∀ j, tr (g j) = vr j) (hmiss : ∀ p, (∀ j, g j ≠ p) → tr p = 0) :
    ∑ p, (hr p - tr p) * (hr p - tr p)
      = (∑ p, hr p * hr p) + ((-2 : ℝ) * (∑ j, vr j * hr (g j)) + ∑ j, vr j) := by
  -- the cross term: only the positions `g j` contribute
  have e1 : ∑ p, hr p * tr p = ∑ j, vr j * hr (g j) := by
    rw [sum_eq_sum_comp_of_injective g hg (fun p => hr p * tr p)
      (by intro p hp; simp only [hmiss p hp, mul_zero])]
    apply Finset.sum_congr rfl
    intro j _
    simp only [hhit, mul_comm]
  -- the square of the target: `vr j * vr j = vr j` at `0` and at `1`
  have e2 : ∑ p, tr p * tr p = ∑ j, vr j := by
    rw [sum_eq_sum_comp_of_injective g hg (fun p => tr p * tr p)
      (by intro p hp; simp only [hmiss p hp, mul_zero])]
    apply Finset.sum_congr rfl
    intro j _
    simp only [hhit]
    rcases hvr j with h0 | h1
    · rw [h0, mul_zero]
    · rw [h1, mul_one]
  -- the square of the difference, expanded under the sum
  have e3 : ∑ p, (hr p - tr p) * (hr p - tr p)
      = ∑ p, hr p * hr p - 2 * ∑ p, hr p * tr p + ∑ p, tr p * tr p := by
    rw [Finset.mul_sum, ← Finset.sum_sub_distrib, ← Finset.sum_add_distrib]
    apply Finset.sum_congr rfl
    intro p _
    ring
  rw [e3, e1, e2]
  ring

/-- The sum of the squares of `h − tt`, for a table `h` of finite extended reals and a target `tt`
    that holds `vis j ∈ {0, 1}` at `g j` (`g` injective) and `0` elsewhere, is the sum of the
    squares of `h` plus `−2` times the sum of `vis j · h (g j)` plus the sum of `vis`. The operations
    are EReal's. -/
theorem sum_sq_sub_onehot {P J : Type} [Fintype P] [Fintype J] [DecidableEq P] (g : J → P)
    (hg : Function.Injective g)
    (h : P → EReal) (hfin : ∀ p, ∃ r : ℝ, h p = (r : EReal)) (vis : J → EReal)
    (hvis : ∀ j, vis j = 0 ∨ vis j = 1)
    (tt : P → EReal) (hhit : ∀ j, tt (g j) = vis j) (hmiss : ∀ p, (∀ j, g j ≠ p) → tt p = 0) :
    ∑ p, (h p - tt p) * (h p - tt p)
      = (∑ p, h p * h p) + (((-2 : ℝ) : EReal) * (∑ j, vis j * h (g j)) + ∑ j, vis j) := by
  classical
  -- real witnesses for `h`, `vis`, `tt`
  choose hr hhr using hfin
  have hvis' : ∀ j, ∃ r : ℝ, vis j = (r : EReal) ∧ (r = 0 ∨ r = 1) := by
    intro j
    rcases hvis j with h0 | h1
    · exact ⟨0, by rw [h0, EReal.coe_zero], Or.inl rfl⟩
    · exact ⟨1, by rw [h1, EReal.coe_one], Or.inr rfl⟩
  choose vr hvr hvr01 using hvis'
  have htt : ∀ p, ∃ r : ℝ, tt p = (r : EReal) := by
    intro p
    by_cases hp : ∃ j, g j = p
    · obtain ⟨j, rfl⟩ := hp
      exact ⟨vr j, by rw [hhit, hvr]⟩
    · exact ⟨0, by rw [hmiss p (fun j hj => hp ⟨j, hj⟩), EReal.coe_zero]⟩
  choose tr htr using htt
  have htr_hit : ∀ j, tr (g j) = vr j := by
    intro j
    have h1 := hhit j
    rw [htr, hvr] at h1
    exact EReal.coe_eq_coe_iff.1 h1
  have htr_miss : ∀ p, (∀ j, g j ≠ p) → tr p = 0 := by
    intro p hp
    have h1 := hmiss p hp
    rw [htr, ← EReal.coe_zero] at h1
    exact EReal.coe_eq_coe_iff.1 h1
  -- everything is the coercion of a real expression
  simp only [hhr, hvr, htr]
  simp only [← EReal.coe_sub, ← EReal.coe_mul, ← ereal_coe_finset_sum, ← EReal.coe_add]
  rw [real_sum_sq_sub_onehot g hg hr vr hvr01 tr htr_hit htr_miss]

end Idealize.ShloMosaic
-- ==== Proof.RefValue.lean ====
/-
  The reference program's value, in closed form at the extended reals.

  The reference writes the target `tt = zeros.at[idx].set(vis)` (a scatter whose body returns the
  update, into the zero tensor), subtracts it from `h`, squares, sums over every index and
  divides by a constant. Given where each update index lands (`tgt`, injective) and that `vis`
  takes the values `0` and `1`, the target holds `vis j` at `tgt j` and `0` elsewhere, and the sum
  of the squares splits as

      ∑_p (h p − tt p)²  =  ∑_p (h p)²  +  ( −2 · ∑_j vis j · h (tgt j)  +  ∑_j vis j ),

  (the algebraic law `sum_sq_sub_onehot`), which is the shape of the sum the other program
  computes.
-/
import proofs.«158940_j57629871178021_2_alg».proof.Proof.Gen.ReferenceIdeal.Read
import proofs.«158940_j57629871178021_2_alg».proof.Proof.LibScatterSet
import proofs.«158940_j57629871178021_2_alg».proof.Proof.LibSquareSplit

noncomputable section

namespace Cert.RefValue

open Cert.ReferenceIdeal Cert.ReferenceIdeal.Gen Cert.ReferenceIdeal.Read Idealize.ShloMosaic

/-- The reference's scatter record: four index components, every operand axis inserted. -/
abbrev sd : ScatterDims S16384x14x14x14 S16384x14x4 S16384x14 :=
  scatter_S16384x14x14x14_S16384x14x4_S16384x14_n_0123_0123_2

/-- The scatter's index vectors, as the reference computes them from `t`. -/
abbrev IDX (t : (⟨S16384x14x2, .f32⟩ : BufTy).Contents (Elt Ideal)) : (⟨S16384x14x4, .i32⟩ : BufTy).Contents (Elt Ideal) :=
  val_main_v44 (F := Ideal) t

/-- The scatter's updates: the visibility flags as floats. -/
abbrev VIS (v : (⟨S16384x14x1, .i32⟩ : BufTy).Contents (Elt Ideal)) : (⟨S16384x14, .f32⟩ : BufTy).Contents (Elt Ideal) :=
  val_main_v12 (F := Ideal) v

/-- The pattern `0xC0000000` (sign set, exponent field `128`, fraction `0`) denotes the real `-2`. -/
theorem ofBits_neg_two : Ideal.ofBits .f32 0xC0000000#32 = ((-2 : ℝ) : EReal) := by
  simp [Ideal.ofBits, Ideal.ieee, -EReal.coe_mul]; norm_num

section
variable (t : (⟨S16384x14x2, .f32⟩ : BufTy).Contents (Elt Ideal))
  (v : (⟨S16384x14x1, .i32⟩ : BufTy).Contents (Elt Ideal))
  (tgt : S16384x14.Idx → S16384x14x14x14.Idx)

/-- The target at the position update index `j` lands on is `j`'s update: no other update index
    lands there, `tgt` being injective. -/
theorem target_hit (htgt : Function.Injective tgt)
    (hhit : ∀ j, sd.resultIdx? j (IDX t) = some (tgt j)) (j : S16384x14.Idx) :
    val_main_v45 (F := Ideal) t v (tgt j) = VIS v j := by
  unfold val_main_v45
  refine scatter_set_apply_of_hit sd _ (IDX t) (VIS v) ?_ j (tgt j) (hhit j)
  intro j₁ j₂ i h₁ h₂
  rw [hhit j₁] at h₁
  rw [hhit j₂] at h₂
  exact htgt ((Option.some.inj h₁).trans (Option.some.inj h₂).symm)

/-- The target at a position no update index lands on is the zero tensor's element, `0`. -/
theorem target_miss (hhit : ∀ j, sd.resultIdx? j (IDX t) = some (tgt j))
    (p : S16384x14x14x14.Idx) (hp : ∀ j, tgt j ≠ p) :
    val_main_v45 (F := Ideal) t v p = 0 := by
  unfold val_main_v45
  rw [scatter_set_apply_of_miss sd _ (IDX t) (VIS v) p
    (fun j hj => hp j (by rw [hhit j] at hj; exact Option.some.inj hj))]
  rw [val_main_v17_apply, val_main_cst_4_apply, Ideal.ofBits_def, Ideal.ofBits_zero_f32]

end

/-- The reference's result: the quotient, by the constant `0x4BAB8000`, of the sum of the squares
    of `h` plus `−2` (the pattern `0xC0000000`) times the sum of `vis j · h (tgt j)` plus the sum of
    `vis` — for a finite `h`, update indices that land on the injective `tgt`, and `vis` in
    `{0, 1}`. -/
theorem ref_value_of (h : (⟨S16384x14x14x14, .f32⟩ : BufTy).Contents (Elt Ideal))
    (t : (⟨S16384x14x2, .f32⟩ : BufTy).Contents (Elt Ideal))
    (v : (⟨S16384x14x1, .i32⟩ : BufTy).Contents (Elt Ideal))
    (hfin : ∀ p, ∃ r : ℝ, h p = (r : EReal))
    (tgt : S16384x14.Idx → S16384x14x14x14.Idx) (htgt : Function.Injective tgt)
    (hhit : ∀ j, sd.resultIdx? j (IDX t) = some (tgt j)) (hvis : ∀ j, VIS v j = 0 ∨ VIS v j = 1)
    (i : S_.Idx) :
    val_main_v49 (F := Ideal) h t v i
      = FloatOps.hostDivf (F := Ideal)
          ((∑ p : S16384x14x14x14.Idx, h p * h p)
            + ((FloatOps.ofBits (F := Ideal) .f32 0xC0000000#32) * (∑ j : S16384x14.Idx, VIS v j * h (tgt j))
              + ∑ j : S16384x14.Idx, VIS v j))
          (FloatOps.ofBits (F := Ideal) .f32 0x4BAB8000#32) := by
  rw [val_main_v49_apply, val_main_v48_apply, val_main_cst_14_apply, val_main_cst_13_apply]
  simp only [val_main_v47_apply, val_main_v46_apply, Ideal.mulf_def, Ideal.subf_def]
  rw [sum_sq_sub_onehot tgt htgt h hfin (VIS v) hvis (val_main_v45 (F := Ideal) t v)
    (target_hit t v tgt htgt hhit) (target_miss t v tgt hhit)]
  simp only [Ideal.ofBits_def]
  rw [Ideal.ofBits_zero_f32, zero_add, ofBits_neg_two]

end Cert.RefValue

end
-- ==== Proof.FiniteH.lean ====
import proofs.«158940_j57629871178021_2_alg».proof.Defs
import proofs.«158940_j57629871178021_2_alg».proof.Proof.Gen.KernelIdeal
import proofs.«158940_j57629871178021_2_alg».proof.Proof.Gen.Pre_finite_inputs
import Idealize.ShloMosaic.Lib.ReduceAll
import Idealize.ShloMosaic.Lib.ValueIdx
import Idealize.ShloMosaic.PureOps.Ideal

/-!
From the precondition to finiteness: the precondition says that the conjunction of three
"all entries have absolute value below +∞" tests is true. The middle test is about the array h;
so every entry of h is neither +∞ nor −∞, nor the junk value, i.e. it is a real number.
-/

namespace Cert.FiniteH

open Idealize.ShloMosaic Idealize.SL.Sem

/-- An extended real whose absolute value max x (−x) is strictly below the value of the f32 word
    of +∞ is a real number: +∞ fails the test itself, and −∞ has absolute value +∞. -/
theorem real_of_abs_lt_inf (x : EReal)
    (h : Ideal.cmp .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- Under the precondition every entry of h, on every device, is a real number. -/
theorem h_finite
    (m : (ℓ : Loc Cert.KernelIdeal.nD Cert.KernelIdeal.τ Cert.KernelIdeal.sig) → Buf (Elt Ideal) ℓ)
    (hpre : Cert.Pre_KernelIdeal m) (c : Dev Cert.KernelIdeal.nD)
    (p : Cert.KernelIdeal.S16384x14x14x14.Idx) :
    ∃ r : ℝ, m ((c.tc : Thread Cert.KernelIdeal.nD Cert.KernelIdeal.τ).loc Cert.KernelIdeal.main_arg1) p
      = (r : EReal) := by
  have h := congrFun (hpre c) ValueIdx.ix0
  dsimp only [Cert.Pre_finite_inputs.fn] at h
  -- the conjunction (all o ∧ all h) ∧ all t
  obtain ⟨h1, _⟩ := IntOp.andi_eq_one.1 h
  obtain ⟨_, h2⟩ := IntOp.andi_eq_one.1 h1
  -- the test on h holds at every index
  have h3 := Host.reduce_andi_all _ _ _ _ _ h2 p
  exact real_of_abs_lt_inf _ h3

end Cert.FiniteH
-- ==== Proof.lean ====
/-
  The certificate of one kernel against its reference: the mean squared error of heat maps h against one-hot targets.

  The reference builds the target tt — zero except, in each (batch, joint) plane, the visibility flag at the clipped,
  truncated cell (x, y) — and returns Σ (h − tt)² / n. The kernel never builds tt: a region of 2 × 14 grid points sums
  the squares of h (reshaped to (351232, 128), one block of 12544 rows per point, one running total per core), and
  host operations add the correction −2 · Σ vis · h[b, j, x, y] + Σ vis and divide by n.

  Over the extended reals, with every entry of h finite, the two agree: (h − tt)² = h² − 2·h·tt + tt², the cross term
  lives on the cells the scatter hits, which are the cells the gather reads (distinct for distinct (b, j), because the
  first two coordinates of a cell are b and j themselves), and tt² = tt since a flag is 0 or 1.

  The frames of the kernel and of its idealization are the region's frame between the host operations
  (Proof/FrameKernel, Proof/FrameKernelIdeal); the reference's frame is its run with the result dropped; the
  idealization rewrote nothing.
-/
import proofs.«158940_j57629871178021_2_alg».proof.Defs
import proofs.«158940_j57629871178021_2_alg».proof.Proof.Gen.Kernel
import proofs.«158940_j57629871178021_2_alg».proof.Proof.Gen.Kernel.Skeleton
import proofs.«158940_j57629871178021_2_alg».proof.Proof.Gen.Kernel.Launch
import proofs.«158940_j57629871178021_2_alg».proof.Proof.Gen.Kernel.Points
import proofs.«158940_j57629871178021_2_alg».proof.Proof.Gen.KernelIdeal
import proofs.«158940_j57629871178021_2_alg».proof.Proof.Gen.KernelIdeal.Skeleton
import proofs.«158940_j57629871178021_2_alg».proof.Proof.Gen.KernelIdeal.Launch
import proofs.«158940_j57629871178021_2_alg».proof.Proof.Gen.KernelIdeal.Points
import proofs.«158940_j57629871178021_2_alg».proof.Proof.Gen.ReferenceIdeal
import proofs.«158940_j57629871178021_2_alg».proof.Proof.Gen.Pre_finite_inputs
import proofs.«158940_j57629871178021_2_alg».proof.Proof.Gen.ReferenceIdeal.Run
import proofs.«158940_j57629871178021_2_alg».proof.Proof.Gen.ReferenceIdeal.Read
import proofs.«158940_j57629871178021_2_alg».proof.Proof.FrameKernel.Frame
import proofs.«158940_j57629871178021_2_alg».proof.Proof.KernelResult
import proofs.«158940_j57629871178021_2_alg».proof.Proof.RefIndex
import proofs.«158940_j57629871178021_2_alg».proof.Proof.RefValue
import proofs.«158940_j57629871178021_2_alg».proof.Proof.FiniteH
import Idealize.ShloMosaic.Adequacy
import Idealize.ShloMosaic.Init

noncomputable section

namespace Cert.Proof

open Idealize.ShloMosaic Idealize.SL.Sem

/-- The kernel runs to the end without a fault and leaves its arguments unchanged. -/
theorem frame_k : Cert.frame_Kernel := fun m ρ _ => Cert.Kernel.FrameH.frame m ρ
/-- So does its idealization. -/
theorem frame_ki : Cert.frame_KernelIdeal := fun m ρ _ => Cert.KernelIdeal.FrameH.frame m ρ
/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact instance, from memories agreeing on the arguments, the kernel's result and the reference's are the
    same extended real: both are (Σ h² + (−2 · Σ vis · h[cell] + Σ vis)) / n. -/
theorem algebraic : Cert.algebraic_KernelIdeal_ReferenceIdeal := by
  intro m ρ m' ρ' hpre hagree
  refine ⟨fun c => Pipeline.afterTail₀ Cert.KernelIdeal.cfgs (Cert.KernelIdeal.FrameH.dats m) 0 (Cert.KernelIdeal.FrameH.V0 m)
    Cert.KernelIdeal.FrameH.tailOps c Cert.KernelIdeal.main_v56, Cert.KernelIdeal.ResultH.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).2.1, (hagree c).2.2.1, (hagree c).2.2.2]
  funext i
  refine Eq.trans ?_ (Cert.KernelIdeal.ResultH.kernel_value m c i).symm
  rw [Cert.RefValue.ref_value_of _ _ _ (Cert.FiniteH.h_finite m hpre c) (Cert.RefIndex.tgt _) (Cert.RefIndex.tgt_injective _)
    (Cert.RefIndex.scatter_hits _) (Cert.RefIndex.vis_01 _) i]
  rw [Cert.KerTailRun.idxK_eq, Cert.KerTailRun.visK_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
